-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8x257 : Shape := ⟨3, ![16384, 8, 257]⟩
abbrev S8x257 : Shape := ⟨2, ![8, 257]⟩
abbrev S_ : Shape := ⟨0, ![]⟩

class Facts : Prop where
  bcast_S_S16384x8x257 : S_.BroadcastsInDim S16384x8x257 (![] : Fin 0 → Fin S16384x8x257.rank)
  reducesTo_S16384x8x257_S_d0_1_2 : S16384x8x257.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn_part1 {F : FTy → Type} [FloatOps F] (main_arg4 : FVec F S8x257 .f32) (main_arg5 : FVec F S8x257 .f32) (main_arg6 : FVec F S8x257 .f32) (main_v13 : IVec S_ 1) (main_v16 : IVec S8x257 1) : IVec S_ 1 :=
  let main_c_5 : IVec S_ 1 := constantI S_ 1 1#1
  let main_v17 : IVec S_ 1 := (fun x v => Host.reduce IntOp.andi x v reducesTo_S8x257_S_d0_1 h_S_) main_v16 main_c_5
  let main_v18 : IVec S_ 1 := andi main_v13 main_v17
  let main_v19 : FVec F S8x257 .f32 := Host.absf main_arg4
  let main_cst_6 : FVec F S_ .f32 := constant S_ .f32 0x7F800000#32
  let main_v20 : FVec F S8x257 .f32 := broadcastInDim S8x257 ![] bcast_S_S8x257 main_cst_6
  let main_v21 : IVec S8x257 1 := cmpf .olt main_v19 main_v20
  let main_c_7 : IVec S_ 1 := constantI S_ 1 1#1
  let main_v22 : IVec S_ 1 := (fun x v => Host.reduce IntOp.andi x v reducesTo_S8x257_S_d0_1 h_S_) main_v21 main_c_7
  let main_v23 : IVec S_ 1 := andi main_v18 main_v22
  let main_v24 : FVec F S8x257 .f32 := Host.absf main_arg5
  let main_cst_8 : FVec F S_ .f32 := constant S_ .f32 0x7F800000#32
  let main_v25 : FVec F S8x257 .f32 := broadcastInDim S8x257 ![] bcast_S_S8x257 main_cst_8
  let main_v26 : IVec S8x257 1 := cmpf .olt main_v24 main_v25
  let main_c_9 : IVec S_ 1 := constantI S_ 1 1#1
  let main_v27 : IVec S_ 1 := (fun x v => Host.reduce IntOp.andi x v reducesTo_S8x257_S_d0_1 h_S_) main_v26 main_c_9
  let main_v28 : IVec S_ 1 := andi main_v23 main_v27
  let main_v29 : FVec F S8x257 .f32 := Host.absf main_arg6
  let main_cst_10 : FVec F S_ .f32 := constant S_ .f32 0x7F800000#32
  let main_v30 : FVec F S8x257 .f32 := broadcastInDim S8x257 ![] bcast_S_S8x257 main_cst_10
  let main_v31 : IVec S8x257 1 := cmpf .olt main_v29 main_v30
  let main_c_11 : IVec S_ 1 := constantI S_ 1 1#1
  let main_v32 : IVec S_ 1 := (fun x v => Host.reduce IntOp.andi x v reducesTo_S8x257_S_d0_1 h_S_) main_v31 main_c_11
  let main_v33 : IVec S_ 1 := andi main_v28 main_v32
  main_v33

def fn {F : FTy → Type} [FloatOps F] (main_arg0 : FVec F S16384x8x257 .f32) (main_arg1 : FVec F S16384x8x257 .f32) (main_arg2 : FVec F S8x257 .f32) (main_arg3 : FVec F S8x257 .f32) (main_arg4 : FVec F S8x257 .f32) (main_arg5 : FVec F S8x257 .f32) (main_arg6 : FVec F S8x257 .f32) : IVec S_ 1 :=
  let main_v0 : FVec F S16384x8x257 .f32 := Host.absf main_arg0
  let main_cst : FVec F S_ .f32 := constant S_ .f32 0x7F800000#32
  let main_v1 : FVec F S16384x8x257 .f32 := broadcastInDim S16384x8x257 ![] bcast_S_S16384x8x257 main_cst
  let main_v2 : IVec S16384x8x257 1 := cmpf .olt main_v0 main_v1
  let main_c : IVec S_ 1 := constantI S_ 1 1#1
  let main_v3 : IVec S_ 1 := (fun x v => Host.reduce IntOp.andi x v reducesTo_S16384x8x257_S_d0_1_2 h_S_) main_v2 main_c
  let main_v4 : FVec F S16384x8x257 .f32 := Host.absf main_arg1
  let main_cst_0 : FVec F S_ .f32 := constant S_ .f32 0x7F800000#32
  let main_v5 : FVec F S16384x8x257 .f32 := broadcastInDim S16384x8x257 ![] bcast_S_S16384x8x257 main_cst_0
  let main_v6 : IVec S16384x8x257 1 := cmpf .olt main_v4 main_v5
  let main_c_1 : IVec S_ 1 := constantI S_ 1 1#1
  let main_v7 : IVec S_ 1 := (fun x v => Host.reduce IntOp.andi x v reducesTo_S16384x8x257_S_d0_1_2 h_S_) main_v6 main_c_1
  let main_v8 : IVec S_ 1 := andi main_v3 main_v7
  let main_v9 : FVec F S8x257 .f32 := Host.absf main_arg2
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_c_3 : IVec S_ 1 := constantI S_ 1 1#1
  let main_v12 : IVec S_ 1 := (fun x v => Host.reduce IntOp.andi x v reducesTo_S8x257_S_d0_1 h_S_) main_v11 main_c_3
  let main_v13 : IVec S_ 1 := andi main_v8 main_v12
  let main_v14 : FVec F S8x257 .f32 := Host.absf main_arg3
  let main_cst_4 : FVec F S_ .f32 := constant S_ .f32 0x7F800000#32
  let main_v15 : FVec F S8x257 .f32 := broadcastInDim S8x257 ![] bcast_S_S8x257 main_cst_4
  let main_v16 : IVec S8x257 1 := cmpf .olt main_v14 main_v15
  fn_part1 (F := F) main_arg4 main_arg5 main_arg6 main_v13 main_v16
-- ==== Kernel.lean ====
abbrev S16384x8x257 : Shape := ⟨3, ![16384, 8, 257]⟩
abbrev S8x257 : Shape := ⟨2, ![8, 257]⟩
abbrev S16384x2056 : Shape := ⟨2, ![16384, 2056]⟩
abbrev S2x5x2056 : Shape := ⟨3, ![2, 5, 2056]⟩
abbrev S1024x2056 : Shape := ⟨2, ![1024, 2056]⟩
abbrev S1x5x2056 : Shape := ⟨3, ![1, 5, 2056]⟩
abbrev S5x2056 : Shape := ⟨2, ![5, 2056]⟩
abbrev S1x1x2056 : Shape := ⟨3, ![1, 1, 2056]⟩
abbrev S1x2056 : Shape := ⟨2, ![1, 2056]⟩
abbrev S2056 : Shape := ⟨1, ![2056]⟩
abbrev S_ : Shape := ⟨0, ![]⟩
abbrev S512x2056 : Shape := ⟨2, ![512, 2056]⟩

abbrev nBuf : Space → Nat
  | .hbm => 90
  | .vmem => 22
  | .smem => 0
  | _ => 0

abbrev bufTy : (tb : Table) → Fin (tcTables nBuf tb) → BufTy
  | .hbm, ⟨0, _⟩ => ⟨S16384x8x257, .f32⟩
  | .hbm, ⟨1, _⟩ => ⟨S16384x8x257, .f32⟩
  | .hbm, ⟨2, _⟩ => ⟨S8x257, .f32⟩
  | .hbm, ⟨3, _⟩ => ⟨S8x257, .f32⟩
  | .hbm, ⟨4, _⟩ => ⟨S8x257, .f32⟩
  | .hbm, ⟨5, _⟩ => ⟨S8x257, .f32⟩
  | .hbm, ⟨6, _⟩ => ⟨S8x257, .f32⟩
  | .hbm, ⟨7, _⟩ => ⟨S16384x2056, .f32⟩
  | .hbm, ⟨8, _⟩ => ⟨S16384x2056, .f32⟩
  | .hbm, ⟨9, _⟩ => ⟨S2x5x2056, .f32⟩
  | .hbm, ⟨10, _⟩ => ⟨S1x5x2056, .f32⟩
  | .hbm, ⟨11, _⟩ => ⟨S5x2056, .f32⟩
  | .hbm, ⟨12, _⟩ => ⟨S1x5x2056, .f32⟩
  | .hbm, ⟨13, _⟩ => ⟨S5x2056, .f32⟩
  | .hbm, ⟨14, _⟩ => ⟨S5x2056, .f32⟩
  | .hbm, ⟨15, _⟩ => ⟨S1x2056, .f32⟩
  | .hbm, ⟨16, _⟩ => ⟨S1x2056, .f32⟩
  | .hbm, ⟨17, _⟩ => ⟨S1x2056, .f32⟩
  | .hbm, ⟨18, _⟩ => ⟨S1x2056, .f32⟩
  | .hbm, ⟨19, _⟩ => ⟨S1x2056, .f32⟩
  | .hbm, ⟨20, _⟩ => ⟨S_, .f32⟩
  | .hbm, ⟨21, _⟩ => ⟨S1x2056, .f32⟩
  | .hbm, ⟨22, _⟩ => ⟨S1x2056, .f32⟩
  | .hbm, ⟨23, _⟩ => ⟨S_, .f32⟩
  | .hbm, ⟨24, _⟩ => ⟨S1x2056, .f32⟩
  | .hbm, ⟨25, _⟩ => ⟨S1x2056, .f32⟩
  | .hbm, ⟨26, _⟩ => ⟨S_, .f32⟩
  | .hbm, ⟨27, _⟩ => ⟨S1x2056, .f32⟩
  | .hbm, ⟨28, _⟩ => ⟨S1x2056, .f32⟩
  | .hbm, ⟨29, _⟩ => ⟨S1x2056, .f32⟩
  | .hbm, ⟨30, _⟩ => ⟨S1x2056, .f32⟩
  | .hbm, ⟨31, _⟩ => ⟨S_, .f32⟩
  | .hbm, ⟨32, _⟩ => ⟨S1x2056, .f32⟩
  | .hbm, ⟨33, _⟩ => ⟨S1x2056, .f32⟩
  | .hbm, ⟨34, _⟩ => ⟨S1x2056, .f32⟩
  | .hbm, ⟨35, _⟩ => ⟨S1x2056, .f32⟩
  | .hbm, ⟨36, _⟩ => ⟨S_, .f32⟩
  | .hbm, ⟨37, _⟩ => ⟨S1x2056, .f32⟩
  | .hbm, ⟨38, _⟩ => ⟨S1x2056, .f32⟩
  | .hbm, ⟨39, _⟩ => ⟨S1x2056, .f32⟩
  | .hbm, ⟨40, _⟩ => ⟨S1x2056, .f32⟩
  | .hbm, ⟨41, _⟩ => ⟨S1x2056, .f32⟩
  | .hbm, ⟨42, _⟩ => ⟨S1x2056, .f32⟩
  | .hbm, ⟨43, _⟩ => ⟨S1x2056, .f32⟩
  | .hbm, ⟨44, _⟩ => ⟨S1x2056, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x2056, .f32⟩
  | .hbm, ⟨49, _⟩ => ⟨S1x2056, .f32⟩
  | .hbm, ⟨50, _⟩ => ⟨S_, .f32⟩
  | .hbm, ⟨51, _⟩ => ⟨S1x2056, .f32⟩
  | .hbm, ⟨52, _⟩ => ⟨S1x2056, .f32⟩
  | .hbm, ⟨53, _⟩ => ⟨S1x2056, .f32⟩
  | .hbm, ⟨54, _⟩ => ⟨S_, .f32⟩
  | .hbm, ⟨55, _⟩ => ⟨S1x2056, .f32⟩
  | .hbm, ⟨56, _⟩ => ⟨S1x2056, .f32⟩
  | .hbm, ⟨57, _⟩ => ⟨S1x2056, .f32⟩
  | .hbm, ⟨58, _⟩ => ⟨S1x2056, .f32⟩
  | .hbm, ⟨59, _⟩ => ⟨S1x2056, .f32⟩
  | .hbm, ⟨60, _⟩ => ⟨S_, .f32⟩
  | .hbm, ⟨61, _⟩ => ⟨S1x2056, .f32⟩
  | .hbm, ⟨62, _⟩ => ⟨S1x2056, .f32⟩
  | .hbm, ⟨63, _⟩ => ⟨S1x2056, .f32⟩
  | .hbm, ⟨64, _⟩ => ⟨S1x2056, .f32⟩
  | .hbm, ⟨65, _⟩ => ⟨S1x2056, .f32⟩
  | .hbm, ⟨66, _⟩ => ⟨S1x2056, .f32⟩
  | .hbm, ⟨67, _⟩ => ⟨S1x2056, .f32⟩
  | .hbm, ⟨68, _⟩ => ⟨S1x2056, .f32⟩
  | .hbm, ⟨69, _⟩ => ⟨S1x2056, .f32⟩
  | .hbm, ⟨70, _⟩ => ⟨S1x2056, .f32⟩
  | .hbm, ⟨71, _⟩ => ⟨S1x2056, .f32⟩
  | .hbm, ⟨72, _⟩ => ⟨S1x2056, .f32⟩
  | .hbm, ⟨73, _⟩ => ⟨S1x2056, .f32⟩
  | .hbm, ⟨74, _⟩ => ⟨S1x2056, .f32⟩
  | .hbm, ⟨75, _⟩ => ⟨S1x2056, .f32⟩
  | .hbm, ⟨76, _⟩ => ⟨S1x2056, .f32⟩
  | .hbm, ⟨77, _⟩ => ⟨S1x2056, .f32⟩
  | .hbm, ⟨78, _⟩ => ⟨S1x2056, .f32⟩
  | .hbm, ⟨79, _⟩ => ⟨S1x2056, .f32⟩
  | .hbm, ⟨80, _⟩ => ⟨S1x2056, .f32⟩
  | .hbm, ⟨81, _⟩ => ⟨S1x2056, .f32⟩
  | .hbm, ⟨82, _⟩ => ⟨S1x2056, .f32⟩
  | .hbm, ⟨83, _⟩ => ⟨S1x2056, .f32⟩
  | .hbm, ⟨84, _⟩ => ⟨S1x2056, .f32⟩
  | .hbm, ⟨85, _⟩ => ⟨S1x2056, .f32⟩
  | .hbm, ⟨86, _⟩ => ⟨S16384x2056, .f32⟩
  | .hbm, ⟨87, _⟩ => ⟨S16384x2056, .f32⟩
  | .hbm, ⟨88, _⟩ => ⟨S16384x8x257, .f32⟩
  | .hbm, ⟨89, _⟩ => ⟨S16384x8x257, .f32⟩
  | .local _ .vmem, ⟨0, _⟩ => ⟨S1024x2056, .f32⟩
  | .local _ .vmem, ⟨1, _⟩ => ⟨S1024x2056, .f32⟩
  | .local _ .vmem, ⟨2, _⟩ => ⟨S1024x2056, .f32⟩
  | .local _ .vmem, ⟨3, _⟩ => ⟨S1024x2056, .f32⟩
  | .local _ .vmem, ⟨4, _⟩ => ⟨S1x5x2056, .f32⟩
  | .local _ .vmem, ⟨5, _⟩ => ⟨S1x5x2056, .f32⟩
  | .local _ .vmem, ⟨6, _⟩ => ⟨S512x2056, .f32⟩
  | .local _ .vmem, ⟨7, _⟩ => ⟨S512x2056, .f32⟩
  | .local _ .vmem, ⟨8, _⟩ => ⟨S512x2056, .f32⟩
  | .local _ .vmem, ⟨9, _⟩ => ⟨S512x2056, .f32⟩
  | .local _ .vmem, ⟨10, _⟩ => ⟨S1x2056, .f32⟩
  | .local _ .vmem, ⟨11, _⟩ => ⟨S1x2056, .f32⟩
  | .local _ .vmem, ⟨12, _⟩ => ⟨S1x2056, .f32⟩
  | .local _ .vmem, ⟨13, _⟩ => ⟨S1x2056, .f32⟩
  | .local _ .vmem, ⟨14, _⟩ => ⟨S1x2056, .f32⟩
  | .local _ .vmem, ⟨15, _⟩ => ⟨S1x2056, .f32⟩
  | .local _ .vmem, ⟨16, _⟩ => ⟨S1x2056, .f32⟩
  | .local _ .vmem, ⟨17, _⟩ => ⟨S1x2056, .f32⟩
  | .local _ .vmem, ⟨18, _⟩ => ⟨S512x2056, .f32⟩
  | .local _ .vmem, ⟨19, _⟩ => ⟨S512x2056, .f32⟩
  | .local _ .vmem, ⟨20, _⟩ => ⟨S512x2056, .f32⟩
  | .local _ .vmem, ⟨21, _⟩ => ⟨S512x2056, .f32⟩
  | _, _ => ⟨S16384x8x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65_0 : Ref sig .tc := ⟨.hbm, 86, rfl⟩
abbrev main_v65_1 : Ref sig .tc := ⟨.hbm, 87, rfl⟩
abbrev main_v66 : Ref sig .tc := ⟨.hbm, 88, rfl⟩
abbrev main_v67 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19
abbrev cc1_sem11_0 : DmaSem sig := 20
abbrev cc1_sem11_1 : DmaSem sig := 21

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2056 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2056 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x2056 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2056 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2056 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2056 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2056 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2056 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2056 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2056 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2056 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2056 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2056 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x2056 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x2056 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S16384x8x257_S16384x2056 : S16384x8x257.ShapeCasts S16384x2056
  inb_S1x5x2056_S1x5x2056_0_0_0 : ∀ a, (![0, 0, 0] : Fin 3 → Nat) a + S1x5x2056.size a ≤ S1x5x2056.size a
  h_S1x5x2056 : 0 < S1x5x2056.numel
  shapeCasts_S1x5x2056_S5x2056 : S1x5x2056.ShapeCasts S5x2056
  shapeCasts_S5x2056_S1x5x2056 : S5x2056.ShapeCasts S1x5x2056
  inb_S1024x2056_S1024x2056_0_0 : ∀ a, (![0, 0] : Fin 2 → Nat) a + S1024x2056.size a ≤ S1024x2056.size a
  h_S1024x2056 : 0 < S1024x2056.numel
  shapeCasts_S1024x2056_S1024x2056 : S1024x2056.ShapeCasts S1024x2056
  inb_S1x5x2056_S1x1x2056_0_0_0 : ∀ a, (![0, 0, 0] : Fin 3 → Nat) a + S1x1x2056.size a ≤ S1x5x2056.size a
  h_S1x1x2056 : 0 < S1x1x2056.numel
  shapeCasts_S1x1x2056_S1x2056 : S1x1x2056.ShapeCasts S1x2056
  reduces_S1024x2056_S2056 : S1024x2056.Reduces [0] S2056
  shapeCasts_S2056_S1x2056 : S2056.ShapeCasts S1x2056
  shapeCasts_S1x2056_S1x1x2056 : S1x2056.ShapeCasts S1x1x2056
  inb_S1x5x2056_S1x1x2056_0_1_0 : ∀ a, (![0, 1, 0] : Fin 3 → Nat) a + S1x1x2056.size a ≤ S1x5x2056.size a
  inb_S1x5x2056_S1x1x2056_0_2_0 : ∀ a, (![0, 2, 0] : Fin 3 → Nat) a + S1x1x2056.size a ≤ S1x5x2056.size a
  inb_S1x5x2056_S1x1x2056_0_3_0 : ∀ a, (![0, 3, 0] : Fin 3 → Nat) a + S1x1x2056.size a ≤ S1x5x2056.size a
  inb_S1x5x2056_S1x1x2056_0_4_0 : ∀ a, (![0, 4, 0] : Fin 3 → Nat) a + S1x1x2056.size a ≤ S1x5x2056.size a
  slices_S2x5x2056_S1x5x2056_0_0_0 : S2x5x2056.Slices ![0, 0, 0] S1x5x2056
  slices_S2x5x2056_S1x5x2056_1_0_0 : S2x5x2056.Slices ![1, 0, 0] S1x5x2056
  slices_S5x2056_S1x2056_0_0 : S5x2056.Slices ![0, 0] S1x2056
  slices_S5x2056_S1x2056_1_0 : S5x2056.Slices ![1, 0] S1x2056
  slices_S5x2056_S1x2056_2_0 : S5x2056.Slices ![2, 0] S1x2056
  slices_S5x2056_S1x2056_3_0 : S5x2056.Slices ![3, 0] S1x2056
  slices_S5x2056_S1x2056_4_0 : S5x2056.Slices ![4, 0] S1x2056
  bcast_S_S1x2056 : S_.BroadcastsInDim S1x2056 (![] : Fin 0 → Fin S1x2056.rank)
  shapeCasts_S8x257_S1x2056 : S8x257.ShapeCasts S1x2056
  inb_S1x2056_S1x2056_0_0 : ∀ a, (![0, 0] : Fin 2 → Nat) a + S1x2056.size a ≤ S1x2056.size a
  h_S1x2056 : 0 < S1x2056.numel
  shapeCasts_S1x2056_S1x2056 : S1x2056.ShapeCasts S1x2056
  inb_S512x2056_S512x2056_0_0 : ∀ a, (![0, 0] : Fin 2 → Nat) a + S512x2056.size a ≤ S512x2056.size a
  h_S512x2056 : 0 < S512x2056.numel
  shapeCasts_S512x2056_S512x2056 : S512x2056.ShapeCasts S512x2056
  broadcasts_S1x2056_S512x2056 : S1x2056.Broadcasts S512x2056
  shapeCasts_S16384x2056_S16384x8x257 : S16384x2056.ShapeCasts S16384x8x257
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2056.size a ≤ S16384x2056.size a
  hwx0_0 : ∀ i : grid0.Coords, EltTy.bits .f32 = 32 ∨ (Rect.block (s := S16384x2056) S1024x2056.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2056.size a ≤ S16384x2056.size a
  hwx0_1 : ∀ i : grid0.Coords, EltTy.bits .f32 = 32 ∨ (Rect.block (s := S16384x2056) S1024x2056.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x2056.size a ≤ S2x5x2056.size a
  hwx0_2 : ∀ i : grid0.Coords, EltTy.bits .f32 = 32 ∨ (Rect.block (s := S2x5x2056) S1x5x2056.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2056.size a ≤ S16384x2056.size a
  hwx1_0 : ∀ i : grid1.Coords, EltTy.bits .f32 = 32 ∨ (Rect.block (s := S16384x2056) S512x2056.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2056.size a ≤ S16384x2056.size a
  hwx1_1 : ∀ i : grid1.Coords, EltTy.bits .f32 = 32 ∨ (Rect.block (s := S16384x2056) S512x2056.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2056.size a ≤ S1x2056.size a
  hwx1_2 : ∀ i : grid1.Coords, EltTy.bits .f32 = 32 ∨ (Rect.block (s := S1x2056) S1x2056.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2056.size a ≤ S1x2056.size a
  hwx1_3 : ∀ i : grid1.Coords, EltTy.bits .f32 = 32 ∨ (Rect.block (s := S1x2056) S1x2056.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2056.size a ≤ S1x2056.size a
  hwx1_4 : ∀ i : grid1.Coords, EltTy.bits .f32 = 32 ∨ (Rect.block (s := S1x2056) S1x2056.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2056.size a ≤ S1x2056.size a
  hwx1_5 : ∀ i : grid1.Coords, EltTy.bits .f32 = 32 ∨ (Rect.block (s := S1x2056) S1x2056.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2056.size a ≤ S1x2056.size a
  hwx1_6 : ∀ i : grid1.Coords, EltTy.bits .f32 = 32 ∨ (Rect.block (s := S1x2056) S1x2056.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2056.size a ≤ S1x2056.size a
  hwx1_7 : ∀ i : grid1.Coords, EltTy.bits .f32 = 32 ∨ (Rect.block (s := S1x2056) S1x2056.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2056.size a ≤ S1x2056.size a
  hwx1_8 : ∀ i : grid1.Coords, EltTy.bits .f32 = 32 ∨ (Rect.block (s := S1x2056) S1x2056.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2056.size a ≤ S1x2056.size a
  hwx1_9 : ∀ i : grid1.Coords, EltTy.bits .f32 = 32 ∨ (Rect.block (s := S1x2056) S1x2056.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x2056.size a ≤ S16384x2056.size a
  hwx1_10 : ∀ i : grid1.Coords, EltTy.bits .f32 = 32 ∨ (Rect.block (s := S16384x2056) S512x2056.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S512x2056.size a ≤ S16384x2056.size a
  hwx1_11 : ∀ i : grid1.Coords, EltTy.bits .f32 = 32 ∨ (Rect.block (s := S16384x2056) S512x2056.size (cc1_transform_11 i) (hinb1_11 i)).WholeWords (EltTy.packing .f32)

variable [Facts₀]

abbrev win0_0 : Pipeline.Window sig grid0 :=
  Pipeline.Window.ofSpec (Memref.whole main_v0) S1024x2056.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2056.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5x2056.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S512x2056.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2056.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2056.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x2056.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x2056.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S1x2056.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S1x2056.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64) S1x2056.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v51) S1x2056.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v52) S1x2056.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v65_0) S512x2056.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v65_1) S512x2056.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S16384x8x257 : Shape := ⟨3, ![16384, 8, 257]⟩
abbrev S8x257 : Shape := ⟨2, ![8, 257]⟩
abbrev S_ : Shape := ⟨0, ![]⟩
abbrev S1x8x257 : Shape := ⟨3, ![1, 8, 257]⟩

abbrev nBuf : Space → Nat
  | .hbm => 108
  | .vmem => 0
  | .smem => 0
  | _ => 0

abbrev bufTy : (tb : Table) → Fin (tcTables nBuf tb) → BufTy
  | .hbm, ⟨0, _⟩ => ⟨S16384x8x257, .f32⟩
  | .hbm, ⟨1, _⟩ => ⟨S16384x8x257, .f32⟩
  | .hbm, ⟨2, _⟩ => ⟨S8x257, .f32⟩
  | .hbm, ⟨3, _⟩ => ⟨S8x257, .f32⟩
  | .hbm, ⟨4, _⟩ => ⟨S8x257, .f32⟩
  | .hbm, ⟨5, _⟩ => ⟨S8x257, .f32⟩
  | .hbm, ⟨6, _⟩ => ⟨S8x257, .f32⟩
  | .hbm, ⟨7, _⟩ => ⟨S_, .f32⟩
  | .hbm, ⟨8, _⟩ => ⟨S8x257, .f32⟩
  | .hbm, ⟨9, _⟩ => ⟨S1x8x257, .f32⟩
  | .hbm, ⟨10, _⟩ => ⟨S_, .f32⟩
  | .hbm, ⟨11, _⟩ => ⟨S1x8x257, .f32⟩
  | .hbm, ⟨12, _⟩ => ⟨S1x8x257, .f32⟩
  | .hbm, ⟨13, _⟩ => ⟨S_, .f32⟩
  | .hbm, ⟨14, _⟩ => ⟨S8x257, .f32⟩
  | .hbm, ⟨15, _⟩ => ⟨S1x8x257, .f32⟩
  | .hbm, ⟨16, _⟩ => ⟨S_, .f32⟩
  | .hbm, ⟨17, _⟩ => ⟨S1x8x257, .f32⟩
  | .hbm, ⟨18, _⟩ => ⟨S1x8x257, .f32⟩
  | .hbm, ⟨19, _⟩ => ⟨S16384x8x257, .f32⟩
  | .hbm, ⟨20, _⟩ => ⟨S16384x8x257, .f32⟩
  | .hbm, ⟨21, _⟩ => ⟨S16384x8x257, .f32⟩
  | .hbm, ⟨22, _⟩ => ⟨S16384x8x257, .f32⟩
  | .hbm, ⟨23, _⟩ => ⟨S16384x8x257, .f32⟩
  | .hbm, ⟨24, _⟩ => ⟨S_, .f32⟩
  | .hbm, ⟨25, _⟩ => ⟨S8x257, .f32⟩
  | .hbm, ⟨26, _⟩ => ⟨S1x8x257, .f32⟩
  | .hbm, ⟨27, _⟩ => ⟨S_, .f32⟩
  | .hbm, ⟨28, _⟩ => ⟨S1x8x257, .f32⟩
  | .hbm, ⟨29, _⟩ => ⟨S1x8x257, .f32⟩
  | .hbm, ⟨30, _⟩ => ⟨S16384x8x257, .f32⟩
  | .hbm, ⟨31, _⟩ => ⟨S_, .f32⟩
  | .hbm, ⟨32, _⟩ => ⟨S8x257, .f32⟩
  | .hbm, ⟨33, _⟩ => ⟨S1x8x257, .f32⟩
  | .hbm, ⟨34, _⟩ => ⟨S_, .f32⟩
  | .hbm, ⟨35, _⟩ => ⟨S1x8x257, .f32⟩
  | .hbm, ⟨36, _⟩ => ⟨S1x8x257, .f32⟩
  | .hbm, ⟨37, _⟩ => ⟨S16384x8x257, .f32⟩
  | .hbm, ⟨38, _⟩ => ⟨S_, .f32⟩
  | .hbm, ⟨39, _⟩ => ⟨S8x257, .f32⟩
  | .hbm, ⟨40, _⟩ => ⟨S1x8x257, .f32⟩
  | .hbm, ⟨41, _⟩ => ⟨S_, .f32⟩
  | .hbm, ⟨42, _⟩ => ⟨S1x8x257, .f32⟩
  | .hbm, ⟨43, _⟩ => ⟨S1x8x257, .f32⟩
  | .hbm, ⟨44, _⟩ => ⟨S1x8x257, .f32⟩
  | .hbm, ⟨45, _⟩ => ⟨S1x8x257, .f32⟩
  | .hbm, ⟨46, _⟩ => ⟨S1x8x257, .f32⟩
  | .hbm, ⟨47, _⟩ => ⟨S1x8x257, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S1x8x257, .f32⟩
  | .hbm, ⟨52, _⟩ => ⟨S1x8x257, .f32⟩
  | .hbm, ⟨53, _⟩ => ⟨S_, .f32⟩
  | .hbm, ⟨54, _⟩ => ⟨S1x8x257, .f32⟩
  | .hbm, ⟨55, _⟩ => ⟨S1x8x257, .f32⟩
  | .hbm, ⟨56, _⟩ => ⟨S1x8x257, .f32⟩
  | .hbm, ⟨57, _⟩ => ⟨S_, .f32⟩
  | .hbm, ⟨58, _⟩ => ⟨S1x8x257, .f32⟩
  | .hbm, ⟨59, _⟩ => ⟨S1x8x257, .f32⟩
  | .hbm, ⟨60, _⟩ => ⟨S1x8x257, .f32⟩
  | .hbm, ⟨61, _⟩ => ⟨S1x8x257, .f32⟩
  | .hbm, ⟨62, _⟩ => ⟨S1x8x257, .f32⟩
  | .hbm, ⟨63, _⟩ => ⟨S_, .f32⟩
  | .hbm, ⟨64, _⟩ => ⟨S1x8x257, .f32⟩
  | .hbm, ⟨65, _⟩ => ⟨S1x8x257, .f32⟩
  | .hbm, ⟨66, _⟩ => ⟨S1x8x257, .f32⟩
  | .hbm, ⟨67, _⟩ => ⟨S1x8x257, .f32⟩
  | .hbm, ⟨68, _⟩ => ⟨S1x8x257, .f32⟩
  | .hbm, ⟨69, _⟩ => ⟨S1x8x257, .f32⟩
  | .hbm, ⟨70, _⟩ => ⟨S1x8x257, .f32⟩
  | .hbm, ⟨71, _⟩ => ⟨S1x8x257, .f32⟩
  | .hbm, ⟨72, _⟩ => ⟨S1x8x257, .f32⟩
  | .hbm, ⟨73, _⟩ => ⟨S1x8x257, .f32⟩
  | .hbm, ⟨74, _⟩ => ⟨S1x8x257, .f32⟩
  | .hbm, ⟨75, _⟩ => ⟨S1x8x257, .f32⟩
  | .hbm, ⟨76, _⟩ => ⟨S1x8x257, .f32⟩
  | .hbm, ⟨77, _⟩ => ⟨S1x8x257, .f32⟩
  | .hbm, ⟨78, _⟩ => ⟨S1x8x257, .f32⟩
  | .hbm, ⟨79, _⟩ => ⟨S1x8x257, .f32⟩
  | .hbm, ⟨80, _⟩ => ⟨S1x8x257, .f32⟩
  | .hbm, ⟨81, _⟩ => ⟨S1x8x257, .f32⟩
  | .hbm, ⟨82, _⟩ => ⟨S1x8x257, .f32⟩
  | .hbm, ⟨83, _⟩ => ⟨S1x8x257, .f32⟩
  | .hbm, ⟨84, _⟩ => ⟨S1x8x257, .f32⟩
  | .hbm, ⟨85, _⟩ => ⟨S1x8x257, .f32⟩
  | .hbm, ⟨86, _⟩ => ⟨S1x8x257, .f32⟩
  | .hbm, ⟨87, _⟩ => ⟨S1x8x257, .f32⟩
  | .hbm, ⟨88, _⟩ => ⟨S1x8x257, .f32⟩
  | .hbm, ⟨89, _⟩ => ⟨S1x8x257, .f32⟩
  | .hbm, ⟨90, _⟩ => ⟨S1x8x257, .f32⟩
  | .hbm, ⟨91, _⟩ => ⟨S1x8x257, .f32⟩
  | .hbm, ⟨92, _⟩ => ⟨S16384x8x257, .f32⟩
  | .hbm, ⟨93, _⟩ => ⟨S16384x8x257, .f32⟩
  | .hbm, ⟨94, _⟩ => ⟨S16384x8x257, .f32⟩
  | .hbm, ⟨95, _⟩ => ⟨S16384x8x257, .f32⟩
  | .hbm, ⟨96, _⟩ => ⟨S16384x8x257, .f32⟩
  | .hbm, ⟨97, _⟩ => ⟨S1x8x257, .f32⟩
  | .hbm, ⟨98, _⟩ => ⟨S16384x8x257, .f32⟩
  | .hbm, ⟨99, _⟩ => ⟨S16384x8x257, .f32⟩
  | .hbm, ⟨100, _⟩ => ⟨S16384x8x257, .f32⟩
  | .hbm, ⟨101, _⟩ => ⟨S16384x8x257, .f32⟩
  | .hbm, ⟨102, _⟩ => ⟨S16384x8x257, .f32⟩
  | .hbm, ⟨103, _⟩ => ⟨S16384x8x257, .f32⟩
  | .hbm, ⟨104, _⟩ => ⟨S16384x8x257, .f32⟩
  | .hbm, ⟨105, _⟩ => ⟨S1x8x257, .f32⟩
  | .hbm, ⟨106, _⟩ => ⟨S16384x8x257, .f32⟩
  | .hbm, ⟨107, _⟩ => ⟨S16384x8x257, .f32⟩
  | _, _ => ⟨S16384x8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_cst_10 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v31 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  reducesTo_S16384x8x257_S8x257_d0 : S16384x8x257.ReducesTo [0] S8x257
  h_S_ : 0 < S_.numel
  bcast_S8x257_S1x8x257_1_2 : S8x257.BroadcastsInDim S1x8x257 (![1, 2] : Fin 2 → Fin S1x8x257.rank)
  bcast_S_S1x8x257 : S_.BroadcastsInDim S1x8x257 (![] : Fin 0 → Fin S1x8x257.rank)
  bcast_S1x8x257_S16384x8x257_0_1_2 : S1x8x257.BroadcastsInDim S16384x8x257 (![0, 1, 2] : Fin 3 → Fin S16384x8x257.rank)

variable [Facts₀]

class Facts : Prop extends Facts₀ where

variable [Facts]
-- ==== Proof.KernelRun.lean ====
/-
  The idealized kernel's run with its two results named.

  @main is two pipelined regions among stretches of host operations. The buffer contents at each
  boundary are a fold from the launch memory: the reshapes of the two sample arrays, the statistics
  region, the host arithmetic that turns the ten column sums into two means and four mixing
  coefficients, the affine region, and the two reshapes back to (batch, channel, feature). Every
  weakly fair execution terminates with each unscoped buffer at the last boundary's contents; read at
  the two result buffers this names the results, and at the seven arguments it says they are unchanged.
-/
import proofs.«131606_j26182120636725_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the last
    boundary's contents and the seven arguments as launched. -/
theorem run : θ_run defs (onTc (τ := τ) (main (F := F))) ⟨m, fun _ => 0, ρ⟩ (fun r => ∀ c : Dev nD,
      r.2.mem ((c.tc : Thread nD τ).loc main_v66) = W7 m ρ c (Proc.devRef .tc main_v66)
      ∧ r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v66 (by decide)),
       h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Results

end
-- ==== Proof.StatsRegion.lean ====
/-
  The statistics region: five running sums per column.

  The two sample arrays x and y (real and imaginary parts, 16384 rows by 2056 columns) are read in 16
  tiles of 1024 rows; tiles 0-7 belong to the first core and tiles 8-15 to the second. At each tile the
  kernel adds to a 1×5×2056 block, row by row, the tile's column sums of x, y, x², x·y and y²; at a core's
  first tile the block is first reset to zero; after a core's last tile the block is written back as that
  core's slab of the 2×5×2056 statistics array. So entry (core, k, j) of that array is the sum over the
  core's eight tiles of the k-th column sum of column j.

  Read on the extended reals a lane sum is a finite sum, so every statement here is about finite sums.
  The block's contents after a tile are the pieces the body's stores leave, read back row by row: a store
  of one row is seen exactly at that row, and the read-backs of a freshly reset block read zero. The
  running sums follow by induction on the grid point, and the array by covering it with the two blocks
  written back at points 7 and 15.
-/
import proofs.«131606_j26182120636725_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Stats
open Cert.KernelIdeal Cert.KernelIdeal.Gen
variable {F : FTy → Type} [FloatOps F]

/-- Row k of the 1×5×2056 block lies outside a unit rectangle whose rows miss k. -/
theorem row_not_mem {off size : Fin 3 → Nat} {inb : ∀ a, off a + size a ≤ S1x5x2056.size a} (k : Fin 5) (j : Fin 2056)
    (h : k.val < off 1 ∨ off 1 + size 1 ≤ k.val) :
    (ix3 (0 : Fin 1) k j : S1x5x2056.Idx) ∉ (Rect.unit (s := S1x5x2056) off size inb).set := by
  rw [Rect.mem_set_unit]
  intro hm
  have h1 := hm 1
  change off 1 ≤ k.val ∧ k.val < off 1 + size 1 at h1
  omega

/-- A one-row store at row k, made last, is what is read at row k. -/
theorem canon_row_hit {off : Fin 3 → Nat} {inb : ∀ a, off a + (![1, 1, 2056] : Fin 3 → Nat) a ≤ S1x5x2056.size a}
    (k : Fin 5) (j : Fin 2056) (h0 : off 0 = 0) (h1 : off 1 = k.val) (h2 : off 2 = 0)
    (w : (Rect.unit (s := S1x5x2056) off ![1, 1, 2056] inb).shape.Idx → Elt F .f32)
    (L : List (View.Piece (Elt F) S1x5x2056 .f32)) :
    View.canon (⟨Rect.unit (s := S1x5x2056) off ![1, 1, 2056] inb, w⟩ :: L) (ix3 (0 : Fin 1) k j)
      = w (ix3 (0 : Fin 1) (0 : Fin 1) j) := by
  have e : (Rect.unit (s := S1x5x2056) off ![1, 1, 2056] inb).emb (ix3 (0 : Fin 1) (0 : Fin 1) j) = ix3 (0 : Fin 1) k j := by
    funext a
    apply Fin.ext
    match a with
    | ⟨0, _⟩ => show off 0 + 1 * 0 = 0; omega
    | ⟨1, _⟩ => show off 1 + 1 * 0 = k.val; omega
    | ⟨2, _⟩ => show off 2 + 1 * j.val = j.val; omega
  rw [← e]
  exact View.canon_cons_emb _ w L _

/-- The lane sum of a tile, read at column j on the extended reals: the sum of the column's 1024 entries. -/
theorem tileSum_apply (X : FVec Ideal S1024x2056 .f32) (j : Fin 2056) :
    multiReduction (F := Ideal) .add [0] S2056 X 0x00000000#32 reduces_S1024x2056_S2056 (.inl rfl) rfl (ix1 j)
      = ∑ r : Fin 1024, X (ix2 r j) := by
  refine (Ideal.multiReduction_add_single X 0x00000000#32 reduces_S1024x2056_S2056 (.inl rfl) rfl (ix1 j)).trans ?_
  show ∑ k : Fin 1024, _ = _
  refine Finset.sum_congr rfl fun r _ => congrArg X ?_
  exact funext fun a => Fin.ext (by match a with | ⟨0, _⟩ => rfl | ⟨1, _⟩ => rfl)

/-- Row 0's store: what the row held plus the tile's column sums of x. -/
theorem pay7_apply (x : Vec Ideal S1024x2056 .f32) (prev : Vec Ideal S1x1x2056 .f32) (j : Fin 2056) :
    k0_pay7 x prev (ix3 (0 : Fin 1) (0 : Fin 1) j) = prev (ix3 (0 : Fin 1) (0 : Fin 1) j) + ∑ r : Fin 1024, x (ix2 r j) := by
  unfold k0_pay7 k0_pay5
  dsimp only
  refine (shapeCast_ab_1ab_apply _ _ 0 0 j).trans ?_
  refine congrArg₂ (· + ·) (shapeCast_1ab_ab_apply _ _ 0 j) ?_
  refine (shapeCast_a_1a_apply _ _ 0 j).trans ?_
  refine (tileSum_apply _ j).trans ?_
  exact Finset.sum_congr rfl fun r _ => congrFun (shapeCast_self x _) _

theorem pay5_eq (x : Vec Ideal S1024x2056 .f32) : k0_pay5 x = x := shapeCast_self x _
theorem pay6_eq (y : Vec Ideal S1024x2056 .f32) : k0_pay6 y = y := shapeCast_self y _

/-- Row 1's store: what the row held plus the tile's column sums of y. -/
theorem pay8_apply (y : Vec Ideal S1024x2056 .f32) (prev : Vec Ideal S1x1x2056 .f32) (j : Fin 2056) :
    k0_pay8 y prev (ix3 (0 : Fin 1) (0 : Fin 1) j) = prev (ix3 (0 : Fin 1) (0 : Fin 1) j) + ∑ r : Fin 1024, y (ix2 r j) := by
  unfold k0_pay8 k0_pay6
  dsimp only
  refine (shapeCast_ab_1ab_apply _ _ 0 0 j).trans ?_
  refine congrArg₂ (· + ·) (shapeCast_1ab_ab_apply _ _ 0 j) ?_
  refine (shapeCast_a_1a_apply _ _ 0 j).trans ?_
  refine (tileSum_apply _ j).trans ?_
  exact Finset.sum_congr rfl fun r _ => congrFun (shapeCast_self y _) _

/-- Row 2's store: what the row held plus the tile's column sums of x². -/
theorem pay19_apply (x : Vec Ideal S1024x2056 .f32) (prev : Vec Ideal S1x1x2056 .f32) (j : Fin 2056) :
    k0_pay1 (k0_pay9 x prev) (ix3 (0 : Fin 1) (0 : Fin 1) j)
      = prev (ix3 (0 : Fin 1) (0 : Fin 1) j) + ∑ r : Fin 1024, x (ix2 r j) * x (ix2 r j) := by
  unfold k0_pay1 k0_pay9
  dsimp only
  refine (shapeCast_ab_1ab_apply _ _ 0 0 j).trans ?_
  refine congrArg₂ (· + ·) (shapeCast_1ab_ab_apply _ _ 0 j) ?_
  refine (shapeCast_a_1a_apply _ _ 0 j).trans ?_
  refine (tileSum_apply _ j).trans ?_
  refine Finset.sum_congr rfl fun r _ => ?_
  rw [pay5_eq]
  rfl

/-- Row 3's store: what the row held plus the tile's column sums of x·y. -/
theorem pay2_apply (x y : FVec Ideal S1024x2056 .f32) (prev : Vec Ideal S1x1x2056 .f32) (j : Fin 2056) :
    k0_pay2 x y prev (ix3 (0 : Fin 1) (0 : Fin 1) j)
      = prev (ix3 (0 : Fin 1) (0 : Fin 1) j) + ∑ r : Fin 1024, x (ix2 r j) * y (ix2 r j) := by
  unfold k0_pay2
  dsimp only
  refine (shapeCast_ab_1ab_apply _ _ 0 0 j).trans ?_
  refine congrArg₂ (· + ·) (shapeCast_1ab_ab_apply _ _ 0 j) ?_
  refine (shapeCast_a_1a_apply _ _ 0 j).trans ?_
  exact tileSum_apply _ j

/-- Row 4's store: what the row held plus the tile's column sums of y². -/
theorem pay3_apply (y : FVec Ideal S1024x2056 .f32) (prev : Vec Ideal S1x1x2056 .f32) (j : Fin 2056) :
    k0_pay3 y prev (ix3 (0 : Fin 1) (0 : Fin 1) j)
      = prev (ix3 (0 : Fin 1) (0 : Fin 1) j) + ∑ r : Fin 1024, y (ix2 r j) * y (ix2 r j) := by
  unfold k0_pay3
  dsimp only
  refine (shapeCast_ab_1ab_apply _ _ 0 0 j).trans ?_
  refine congrArg₂ (· + ·) (shapeCast_1ab_ab_apply _ _ 0 j) ?_
  refine (shapeCast_a_1a_apply _ _ 0 j).trans ?_
  exact tileSum_apply _ j

/-- What one tile adds to the five running sums of a column: Σx, Σy, Σx², Σxy, Σy². -/
def tile (x y : Vec Ideal S1024x2056 .f32) (k : Fin 5) (j : Fin 2056) : EReal :=
  match k with
  | 0 => ∑ r : Fin 1024, x (ix2 r j)
  | 1 => ∑ r : Fin 1024, y (ix2 r j)
  | 2 => ∑ r : Fin 1024, x (ix2 r j) * x (ix2 r j)
  | 3 => ∑ r : Fin 1024, x (ix2 r j) * y (ix2 r j)
  | 4 => ∑ r : Fin 1024, y (ix2 r j) * y (ix2 r j)

/-- A load of row k of the block reads the block's row k. -/
theorem ld_row {off : Fin 3 → Nat} {inb : ∀ a, off a + (![1, 1, 2056] : Fin 3 → Nat) a ≤ S1x5x2056.size a}
    (k : Fin 5) (j : Fin 2056) (h0 : off 0 = 0) (h1 : off 1 = k.val) (h2 : off 2 = 0) (X : S1x5x2056.Idx → Elt F .f32) :
    View.ld X (Rect.unit (s := S1x5x2056) off ![1, 1, 2056] inb) (ix3 (0 : Fin 1) (0 : Fin 1) j) = X (ix3 (0 : Fin 1) k j) := by
  show X _ = X _
  refine congrArg X (funext fun a => Fin.ext ?_)
  match a with
  | ⟨0, _⟩ => show off 0 + 1 * 0 = 0; omega
  | ⟨1, _⟩ => show off 1 + 1 * 0 = k.val; omega
  | ⟨2, _⟩ => show off 2 + 1 * j.val = j.val; omega

theorem hz2 : (![0, 0] : Fin 2 → Nat) = fun _ => 0 := funext fun a => by fin_cases a <;> rfl

/-- A store of other rows, made last, is not seen at row k. -/
theorem canon_row_skip {off size : Fin 3 → Nat} {inb : ∀ a, off a + size a ≤ S1x5x2056.size a} (k : Fin 5) (j : Fin 2056)
    (h : k.val < off 1 ∨ off 1 + size 1 ≤ k.val)
    (w : (Rect.unit (s := S1x5x2056) off size inb).shape.Idx → Elt F .f32) (L : List (View.Piece (Elt F) S1x5x2056 .f32)) :
    View.canon (⟨Rect.unit (s := S1x5x2056) off size inb, w⟩ :: L) (ix3 (0 : Fin 1) k j) = View.canon L (ix3 (0 : Fin 1) k j) :=
  View.canon_cons_of_not_mem _ _ (row_not_mem (inb := inb) k j h)

theorem hz3 : (![0, 0, 0] : Fin 3 → Nat) = fun _ => 0 := funext fun a => by fin_cases a <;> rfl

/-- The zero block of the reset reads zero everywhere. -/
theorem pay4_apply (k : Fin 5) (j : Fin 2056) : k0_pay4 (F := Ideal) (ix3 (0 : Fin 1) k j) = 0 := by
  unfold k0_pay4
  refine (shapeCast_ab_1ab_apply _ _ 0 k j).trans ?_
  exact Ideal.ofBits_zero_f32

/-- A covered load of row k reads what the earlier stores leave at row k. -/
theorem readCov_row {off : Fin 3 → Nat} {inb : ∀ a, off a + (![1, 1, 2056] : Fin 3 → Nat) a ≤ S1x5x2056.size a}
    (v : View sig .tc .vmem S1x5x2056 .f32) (L : List (View.Piece (Elt Ideal) S1x5x2056 .f32))
    (k : Fin 5) (j : Fin 2056) (h0 : off 0 = 0) (h1 : off 1 = k.val) (h2 : off 2 = 0) :
    v.readCov L (Rect.unit (s := S1x5x2056) off ![1, 1, 2056] inb).toLoadRect (ix3 (0 : Fin 1) (0 : Fin 1) j)
      = View.canon L (ix3 (0 : Fin 1) k j) := by
  rw [View.readCov_eq_canon']
  show View.canon L _ = View.canon L _
  refine congrArg (View.canon L) (funext fun a => Fin.ext ?_)
  match a with
  | ⟨0, _⟩ => show off 0 + 1 * 0 = 0; omega
  | ⟨1, _⟩ => show off 1 + 1 * 0 = k.val; omega
  | ⟨2, _⟩ => show off 2 + 1 * j.val = j.val; omega

/-- After the reset alone every row reads zero. -/
theorem canon_reset (k : Fin 5) (j : Fin 2056) (inb : ∀ a, (![0, 0, 0] : Fin 3 → Nat) a + S1x5x2056.size a ≤ S1x5x2056.size a) :
    View.canon [(⟨Rect.unit (s := S1x5x2056) ![0, 0, 0] S1x5x2056.size inb, k0_pay4 (F := Ideal)⟩ : View.Piece (Elt Ideal) S1x5x2056 .f32)]
      (ix3 (0 : Fin 1) k j) = 0 := by
  rw [View.canon_unit_zero hz3]
  exact pay4_apply k j

/-- CASE B (a tile that is not a core's first): each of the five rows gains the tile's column sums. -/
theorem outB_apply (c : Dev nD) (i : grid0.Coords) (a2 : Memref sig .tc .vmem S1024x2056 .f32) (h2 : a2.IsWhole)
    (a3 : Memref sig .tc .vmem S1024x2056 .f32) (h3 : a3.IsWhole) (a4 : Memref sig .tc .vmem S1x5x2056 .f32) (h4 : a4.IsWhole)
    (hc : ¬cond0_0 i) (x y : Vec Ideal S1024x2056 .f32) (xo : Vec Ideal S1x5x2056 .f32) (k : Fin 5) (j : Fin 2056) :
    out0_B_2 c i a2 h2 a3 h3 a4 h4 hc x y xo (ix3 (0 : Fin 1) k j) = xo (ix3 (0 : Fin 1) k j) + tile x y k j := by
  unfold out0_B_2
  rw [View.read_writes_eq_canon _ _ _ (cover0_B_2 c i a2 h2 a3 h3 a4 h4 hc x y xo)]
  unfold kernelRun0_B
  dsimp only
  sl_unfold_words
  simp only [View.readAt_eq_ld, h2.read_unread, h3.read_unread, h4.read_unread, View.ld_unit_zero (S := S1024x2056) hz2]
  fin_cases k
  · refine (canon_row_skip 0 j (by decide) _ _).trans ?_
    refine (canon_row_skip 0 j (by decide) _ _).trans ?_
    refine (canon_row_skip 0 j (by decide) _ _).trans ?_
    refine (canon_row_skip 0 j (by decide) _ _).trans ?_
    refine (canon_row_hit 0 j rfl rfl rfl _ _).trans ?_
    refine (pay7_apply _ _ j).trans ?_
    rw [ld_row 0 j rfl rfl rfl]
    rfl
  · refine (canon_row_skip 1 j (by decide) _ _).trans ?_
    refine (canon_row_skip 1 j (by decide) _ _).trans ?_
    refine (canon_row_skip 1 j (by decide) _ _).trans ?_
    refine (canon_row_hit 1 j rfl rfl rfl _ _).trans ?_
    refine (pay8_apply _ _ j).trans ?_
    rw [ld_row 1 j rfl rfl rfl]
    rfl
  · refine (canon_row_skip 2 j (by decide) _ _).trans ?_
    refine (canon_row_skip 2 j (by decide) _ _).trans ?_
    refine (canon_row_hit 2 j rfl rfl rfl _ _).trans ?_
    refine (pay19_apply _ _ j).trans ?_
    rw [ld_row 2 j rfl rfl rfl]
    rfl
  · refine (canon_row_skip 3 j (by decide) _ _).trans ?_
    refine (canon_row_hit 3 j rfl rfl rfl _ _).trans ?_
    refine (pay2_apply _ _ _ j).trans ?_
    rw [ld_row 3 j rfl rfl rfl, pay5_eq, pay6_eq]
    rfl
  · refine (canon_row_hit 4 j rfl rfl rfl _ _).trans ?_
    refine (pay3_apply _ _ j).trans ?_
    rw [ld_row 4 j rfl rfl rfl, pay6_eq]
    rfl

/-- CASE A (a core's first tile): the block is reset, so each row ends at the tile's column sums. -/
theorem outA_apply (c : Dev nD) (i : grid0.Coords) (a2 : Memref sig .tc .vmem S1024x2056 .f32) (h2 : a2.IsWhole)
    (a3 : Memref sig .tc .vmem S1024x2056 .f32) (h3 : a3.IsWhole) (a4 : Memref sig .tc .vmem S1x5x2056 .f32) (h4 : a4.IsWhole)
    (hc : cond0_0 i) (x y : Vec Ideal S1024x2056 .f32) (k : Fin 5) (j : Fin 2056) :
    out0_A_2 c i a2 h2 a3 h3 a4 h4 hc x y (ix3 (0 : Fin 1) k j) = tile x y k j := by
  unfold out0_A_2
  rw [View.read_writes_eq_canon _ _ _ (cover0_A_2 c i a2 h2 a3 h3 a4 h4 hc x y)]
  unfold kernelRun0_A
  dsimp only
  sl_unfold_words
  simp only [View.readAt_eq_ld, h2.read_unread, h3.read_unread, View.ld_unit_zero (S := S1024x2056) hz2]
  fin_cases k
  · refine (canon_row_skip 0 j (by decide) _ _).trans ?_
    refine (canon_row_skip 0 j (by decide) _ _).trans ?_
    refine (canon_row_skip 0 j (by decide) _ _).trans ?_
    refine (canon_row_skip 0 j (by decide) _ _).trans ?_
    refine (canon_row_hit 0 j rfl rfl rfl _ _).trans ?_
    refine (pay7_apply _ _ j).trans ?_
    refine (congrArg (· + _) ((readCov_row _ _ 0 j rfl rfl rfl).trans (canon_reset 0 j _))).trans ?_
    exact zero_add _
  · refine (canon_row_skip 1 j (by decide) _ _).trans ?_
    refine (canon_row_skip 1 j (by decide) _ _).trans ?_
    refine (canon_row_skip 1 j (by decide) _ _).trans ?_
    refine (canon_row_hit 1 j rfl rfl rfl _ _).trans ?_
    refine (pay8_apply _ _ j).trans ?_
    refine (congrArg (· + _) ((readCov_row _ _ 1 j rfl rfl rfl).trans
      ((canon_row_skip 1 j (by decide) _ _).trans (canon_reset 1 j _)))).trans ?_
    exact zero_add _
  · refine (canon_row_skip 2 j (by decide) _ _).trans ?_
    refine (canon_row_skip 2 j (by decide) _ _).trans ?_
    refine (canon_row_hit 2 j rfl rfl rfl _ _).trans ?_
    refine (pay19_apply _ _ j).trans ?_
    refine (congrArg (· + _) ((readCov_row _ _ 2 j rfl rfl rfl).trans
      ((canon_row_skip 2 j (by decide) _ _).trans
      ((canon_row_skip 2 j (by decide) _ _).trans (canon_reset 2 j _))))).trans ?_
    exact zero_add _
  · refine (canon_row_skip 3 j (by decide) _ _).trans ?_
    refine (canon_row_hit 3 j rfl rfl rfl _ _).trans ?_
    refine (pay2_apply _ _ _ j).trans ?_
    refine (congrArg (· + _) ((readCov_row _ _ 3 j rfl rfl rfl).trans
      ((canon_row_skip 3 j (by decide) _ _).trans
      ((canon_row_skip 3 j (by decide) _ _).trans
      ((canon_row_skip 3 j (by decide) _ _).trans (canon_reset 3 j _)))))).trans ?_
    rw [pay5_eq, pay6_eq]
    exact zero_add _
  · refine (canon_row_hit 4 j rfl rfl rfl _ _).trans ?_
    refine (pay3_apply _ _ j).trans ?_
    refine (congrArg (· + _) ((readCov_row _ _ 4 j rfl rfl rfl).trans
      ((canon_row_skip 4 j (by decide) _ _).trans
      ((canon_row_skip 4 j (by decide) _ _).trans
      ((canon_row_skip 4 j (by decide) _ _).trans
      ((canon_row_skip 4 j (by decide) _ _).trans (canon_reset 4 j _))))))).trans ?_
    rw [pay6_eq]
    exact zero_add _

/-! ## The running sums over the grid -/

section Region

variable (V : (c : Dev nD) → (b : Ref sig .tc) → Buf (Elt Ideal) ((c : Thread nD τ).loc b))

/-- What tile p (rows 1024 p … 1024 p + 1023 of the two sample arrays) adds to the five sums of column j. -/
def tileAt (c : Dev nD) (p : ℕ) (k : Fin 5) (j : Fin 2056) : EReal :=
  if h : p < cfg0.N then tile (iblk0 V c 0 ⟨p, h⟩) (iblk0 V c 1 ⟨p, h⟩) k j else 0

theorem tileAt_eq (c : Dev nD) (p : ℕ) (h : p < cfg0.N) (k : Fin 5) (j : Fin 2056) :
    tileAt V c p k j = tile (iblk0 V c 0 ⟨p, h⟩) (iblk0 V c 1 ⟨p, h⟩) k j := dif_pos h

/-- After grid point n the block holds, in row k and column j, the sum of the increments of the tiles of
    n's core up to n: the tiles 8⌊n/8⌋ … n. By induction on the point; a core's first point resets. -/
theorem outsAt_apply (c : Dev nD) (k : Fin 5) (j : Fin 2056) : ∀ (n : ℕ) (h : n < cfg0.N),
    outsAt0 V c n h (ix3 (0 : Fin 1) k j) = ∑ p ∈ Finset.range (n % 8 + 1), tileAt V c (n - n % 8 + p) k j
  | 0, h => by
    refine ((congrFun (outsAt0_A V c ⟨0, h⟩ rfl) _).trans
      (outA_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) _
        (iblk0 V c 0 ⟨0, h⟩) (iblk0 V c 1 ⟨0, h⟩) k j)).trans ?_
    show _ = ∑ p ∈ Finset.range 1, tileAt V c (0 + p) k j
    rw [Finset.sum_range_one]
    exact (tileAt_eq V c 0 h k j).symm
  | n + 1, h => by
    by_cases h0 : (n + 1) % 8 = 0
    · refine ((congrFun (outsAt0_A V c ⟨n + 1, h⟩ h0) _).trans
        (outA_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _
          (iblk0 V c 0 ⟨n + 1, h⟩) (iblk0 V c 1 ⟨n + 1, h⟩) k j)).trans ?_
      rw [h0]
      show _ = ∑ p ∈ Finset.range 1, tileAt V c (n + 1 + p) k j
      rw [Finset.sum_range_one]
      exact (tileAt_eq V c (n + 1) h k j).symm
    · refine ((congrFun (outsAt0_B V c ⟨n + 1, h⟩ h0) _).trans
        (outB_apply c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) _
          (iblk0 V c 0 ⟨n + 1, h⟩) (iblk0 V c 1 ⟨n + 1, h⟩) (outsAt0 V c n (Nat.lt_of_succ_lt h)) k j)).trans ?_
      rw [outsAt_apply c k j n (Nat.lt_of_succ_lt h), ← tileAt_eq V c (n + 1) h k j]
      rw [show (n + 1) % 8 = n % 8 + 1 by omega, show n + 1 - (n % 8 + 1) = n - n % 8 by omega,
        Finset.sum_range_succ (fun p => tileAt V c (n - n % 8 + p) k j) (n % 8 + 1),
        show n - n % 8 + (n % 8 + 1) = n + 1 by omega]

/-- The statistics array as one function: entry (core, k, j) is the k-th sum of column j over the core's eight tiles. -/
def statsArr (c : Dev nD) : S2x5x2056.Idx → EReal := fun i =>
  ∑ p ∈ Finset.range 8, tileAt V c (8 * (i 0).val + p) ⟨(i 1).val, (i 1).isLt⟩ ⟨(i 2).val, (i 2).isLt⟩

theorem statsArr_apply (c : Dev nD) (core : Fin 2) (k : Fin 5) (j : Fin 2056) :
    statsArr V c (ix3 core k j) = ∑ p ∈ Finset.range 8, tileAt V c (8 * core.val + p) k j := rfl

/-- The output window's block index at point t is (⌊t/8⌋, 0, 0): one block per core. -/
theorem idx_out : ∀ t : Fin cfg0.N, win0_2.index t (0 : Fin 3) = t.val / 8 ∧ win0_2.index t (1 : Fin 3) = 0 ∧ win0_2.index t (2 : Fin 3) = 0 :=
  (by decide +kernel : ∀ t : Fin grid0.N, win0_2.index t (0 : Fin 3) = t.val / 8 ∧ win0_2.index t (1 : Fin 3) = 0 ∧ win0_2.index t (2 : Fin 3) = 0)

/-- What a core's last point writes back is the core's block of the statistics array. -/
theorem flushed_eq (c : Dev nD) (t : Fin cfg0.N) (hf : (cfg0.win 2).flush t = true) :
    (dat0 V c).flushed 2 t = ((cfg0.win 2).blk t).view.read (Elt Ideal) (statsArr V c) := by
  have h7 : t.val % 8 = 7 := (flush0_2 t).mp hf
  have hN : t.val < 16 := lt_of_lt_of_eq t.isLt (show cfg0.N = 16 from N_0)
  obtain ⟨e0, e1, e2⟩ := idx_out t
  show (cfg0.win 2).cut (grid0.coords t) ((dat0 V c).after 2 t) = _
  rw [after0_2]
  funext y
  have hy0 : (y 0).val < 1 := (y 0).isLt
  have hy1 : (y 1).val < 5 := (y 1).isLt
  have hy2 : (y 2).val < 2056 := (y 2).isLt
  show outsAt0 V c t.val t.isLt y = statsArr V c (((cfg0.win 2).blk t).view.emb y)
  have ey : (y : S1x5x2056.Idx) = ix3 (0 : Fin 1) (⟨(y 1).val, hy1⟩ : Fin 5) (⟨(y 2).val, hy2⟩ : Fin 2056) := by
    funext a; apply Fin.ext
    match a with
    | ⟨0, _⟩ => show (y 0).val = 0; omega
    | ⟨1, _⟩ => rfl
    | ⟨2, _⟩ => rfl
  have hi : ((cfg0.win 2).blk t).view.emb y
      = ix3 (⟨t.val / 8, by omega⟩ : Fin 2) (⟨(y 1).val, hy1⟩ : Fin 5) (⟨(y 2).val, hy2⟩ : Fin 2056) := by
    funext a; apply Fin.ext
    match a with
    | ⟨0, _⟩ => show win0_2.index t (0 : Fin 3) * 1 + 1 * (y 0).val = t.val / 8; rw [e0]; omega
    | ⟨1, _⟩ => show win0_2.index t (1 : Fin 3) * 5 + 1 * (y 1).val = (y 1).val; rw [e1]; omega
    | ⟨2, _⟩ => show win0_2.index t (2 : Fin 3) * 2056 + 1 * (y 2).val = (y 2).val; rw [e2]; omega
  rw [hi, statsArr_apply]
  refine ((congrArg (outsAt0 V c t.val t.isLt) ey).trans (outsAt_apply V c _ _ t.val t.isLt)).trans ?_
  rw [h7]
  show ∑ p ∈ Finset.range 8, tileAt V c (t.val - 7 + p) _ _ = ∑ p ∈ Finset.range 8, tileAt V c (8 * (t.val / 8) + p) _ _
  rw [show t.val - 7 = 8 * (t.val / 8) by omega]

/-- An index of the array lies in point t's block iff each coordinate lies in the block's range. -/
theorem mem_blk (t : Fin cfg0.N) (i : S2x5x2056.Idx) :
    i ∈ ((cfg0.win 2).blk t).view.set ↔ ∀ a : Fin 3, win0_2.index t a * S1x5x2056.size a ≤ (i a).val
      ∧ (i a).val < win0_2.index t a * S1x5x2056.size a + S1x5x2056.size a := by
  show i ∈ ((View.whole main_v2).slice (win0_2.rect t)).set ↔ _
  rw [View.set_slice_whole, Rect.mem_set_unit]
  exact Iff.rfl

/-- So the array region 0 leaves is the statistics array: core q's block is written back at point 8 q + 7. -/
theorem final_stats (c : Dev nD) : (dat0 V c).arrAt 2 cfg0.N = statsArr V c :=
  (dat0 V c).arrAt_eq_of_cover 2 (statsArr V c) (flushed_eq V c) fun i => by
    have hi0 : (i 0).val < 2 := (i 0).isLt
    have hi1 : (i 1).val < 5 := (i 1).isLt
    have hi2 : (i 2).val < 2056 := (i 2).isLt
    have hN : cfg0.N = 16 := N_0
    obtain ⟨t, ht⟩ : ∃ t : Fin cfg0.N, t.val = 8 * (i 0).val + 7 := ⟨⟨8 * (i 0).val + 7, by omega⟩, rfl⟩
    obtain ⟨e0, e1, e2⟩ := idx_out t
    refine ⟨t, (flush0_2 t).mpr (by omega), ?_⟩
    rw [mem_blk]
    intro a
    match a with
    | ⟨0, _⟩ => show win0_2.index t (0 : Fin 3) * 1 ≤ (i 0).val ∧ (i 0).val < win0_2.index t (0 : Fin 3) * 1 + 1; rw [e0]; omega
    | ⟨1, _⟩ => show win0_2.index t (1 : Fin 3) * 5 ≤ (i 1).val ∧ (i 1).val < win0_2.index t (1 : Fin 3) * 5 + 5; rw [e1]; omega
    | ⟨2, _⟩ => show win0_2.index t (2 : Fin 3) * 2056 ≤ (i 2).val ∧ (i 2).val < win0_2.index t (2 : Fin 3) * 2056 + 2056; rw [e2]; omega

/-! ## A tile's increment in terms of the arrays' rows -/

/-- The input windows' block index at point t is (t, 0): tile t is rows 1024 t … 1024 t + 1023. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem iblk_x (c : Dev nD) (t : Fin cfg0.N) (r : Fin 1024) (j : Fin 2056)
    (hb : t.val * 1024 + r.val < 16384) :
    iblk0 V c 0 t (ix2 r j) = V c main_v0 (ix2 (⟨t.val * 1024 + r.val, hb⟩ : Fin 16384) j) := by
  obtain ⟨e0, e1, -, -⟩ := idx_in t
  unfold iblk0
  rw [View.read_apply]
  show V c main_v0 _ = V c main_v0 _
  refine congrArg (V c main_v0) (funext fun a => Fin.ext ?_)
  match a with
  | ⟨0, _⟩ => show win0_0.index t (0 : Fin 2) * 1024 + 1 * r.val = t.val * 1024 + r.val; rw [e0]; omega
  | ⟨1, _⟩ => show win0_0.index t (1 : Fin 2) * 2056 + 1 * j.val = j.val; rw [e1]; omega

theorem iblk_y (c : Dev nD) (t : Fin cfg0.N) (r : Fin 1024) (j : Fin 2056)
    (hb : t.val * 1024 + r.val < 16384) :
    iblk0 V c 1 t (ix2 r j) = V c main_v1 (ix2 (⟨t.val * 1024 + r.val, hb⟩ : Fin 16384) j) := by
  obtain ⟨-, -, e0, e1⟩ := idx_in t
  unfold iblk0
  rw [View.read_apply]
  show V c main_v1 _ = V c main_v1 _
  refine congrArg (V c main_v1) (funext fun a => Fin.ext ?_)
  match a with
  | ⟨0, _⟩ => show win0_1.index t (0 : Fin 2) * 1024 + 1 * r.val = t.val * 1024 + r.val; rw [e0]; omega
  | ⟨1, _⟩ => show win0_1.index t (1 : Fin 2) * 2056 + 1 * j.val = j.val; rw [e1]; omega

end Region

end Cert.KernelIdeal.Stats
end
-- ==== Proof.Whitening.lean ====
/-
  Complex batch normalisation of N = 16384 samples, column by column.

  For one column (a fixed channel and feature) write x, y for the real and imaginary parts over the batch.
  From the two means and the three second central moments (vrr, vri, vii) the whitening matrix U is the
  inverse square root of the 2×2 covariance: with s = sqrt (clip (vrr·vii − vri², lo, hi)) and
  t = sqrt (vrr + vii + 2 s), U = (1 / (s t)) · [[s + vii, −vri], [−vri, s + vrr]]. The affine mixing is
  Z = W U and the output is Z (x − mean) + B. Every function here is a scalar function of its
  arguments, spelt with the float operations in the order both programs apply them, so that it reads
  the same at every instance of the float operations.
-/
import Idealize.ShloMosaic.PureOps.Ideal

noncomputable section

namespace Cert.Whitening

open Idealize.ShloMosaic

variable {F : FTy → Type} [FloatOps F]

/-- The determinant of the covariance, clipped to [1e-6, 1e8] (the two bounds as the programs print them). -/
def clippedDet (vrr vri vii : F .f32) : F .f32 :=
  FloatOps.minimumf (FloatOps.ofBits .f32 0x4CBEBC20#32)
    (FloatOps.maximumf (FloatOps.ofBits .f32 0x358637BD#32)
      (FloatOps.subf (FloatOps.mulf vrr vii) (FloatOps.mulf vri vri)))

/-- s: the square root of the clipped determinant. -/
def rootDet (vrr vri vii : F .f32) : F .f32 :=
  FloatOps.hostUnary .sqrt (clippedDet vrr vri vii)

/-- t: the square root of trace + 2 s. -/
def rootTrace (vrr vri vii : F .f32) : F .f32 :=
  FloatOps.hostUnary .sqrt
    (FloatOps.addf (FloatOps.addf vrr vii)
      (FloatOps.mulf (FloatOps.ofBits .f32 0x40000000#32) (rootDet vrr vri vii)))

/-- 1 / (s t). -/
def invNorm (vrr vri vii : F .f32) : F .f32 :=
  FloatOps.hostDivf (FloatOps.ofBits .f32 0x3F800000#32)
    (FloatOps.mulf (rootDet vrr vri vii) (rootTrace vrr vri vii))

/-- The entries of the whitening matrix U. -/
def uRR (vrr vri vii : F .f32) : F .f32 :=
  FloatOps.mulf (FloatOps.addf (rootDet vrr vri vii) vii) (invNorm vrr vri vii)
def uII (vrr vri vii : F .f32) : F .f32 :=
  FloatOps.mulf (FloatOps.addf (rootDet vrr vri vii) vrr) (invNorm vrr vri vii)
def uRI (vrr vri vii : F .f32) : F .f32 :=
  FloatOps.mulf (FloatOps.hostNegf vri) (invNorm vrr vri vii)

/-- The entries of Z = W U, for W = [[wrr, wri], [wri, wii]]. -/
def zRR (vrr vri vii wrr wri : F .f32) : F .f32 :=
  FloatOps.addf (FloatOps.mulf wrr (uRR vrr vri vii)) (FloatOps.mulf wri (uRI vrr vri vii))
def zRI (vrr vri vii wrr wri : F .f32) : F .f32 :=
  FloatOps.addf (FloatOps.mulf wrr (uRI vrr vri vii)) (FloatOps.mulf wri (uII vrr vri vii))
def zIR (vrr vri vii wri wii : F .f32) : F .f32 :=
  FloatOps.addf (FloatOps.mulf wri (uRR vrr vri vii)) (FloatOps.mulf wii (uRI vrr vri vii))
def zII (vrr vri vii wri wii : F .f32) : F .f32 :=
  FloatOps.addf (FloatOps.mulf wri (uRI vrr vri vii)) (FloatOps.mulf wii (uII vrr vri vii))

/-- The real part of the output at one sample: Zrr (x − mr) + Zri (y − mi) + br. -/
def outRe (mr mi vrr vri vii wrr wri br x y : F .f32) : F .f32 :=
  FloatOps.addf
    (FloatOps.addf (FloatOps.mulf (zRR vrr vri vii wrr wri) (FloatOps.subf x mr))
      (FloatOps.mulf (zRI vrr vri vii wrr wri) (FloatOps.subf y mi))) br

/-- The imaginary part of the output at one sample: Zir (x − mr) + Zii (y − mi) + bi. -/
def outIm (mr mi vrr vri vii wri wii bi x y : F .f32) : F .f32 :=
  FloatOps.addf
    (FloatOps.addf (FloatOps.mulf (zIR vrr vri vii wri wii) (FloatOps.subf x mr))
      (FloatOps.mulf (zII vrr vri vii wri wii) (FloatOps.subf y mi))) bi

/-! ## Means and second moments of a column, on the extended reals -/

/-- The batch size as both programs print it. -/
abbrev batch : EReal := Ideal.ofBits .f32 0x46800000#32

/-- The mean as a sum started from the printed zero, divided by the batch size. -/
def mean (x : Fin 16384 → EReal) : EReal :=
  FloatOps.hostDivf (F := Ideal) (φ := .f32) (Ideal.ofBits .f32 0x00000000#32 + ∑ k, x k) batch

/-- The second central moment: the mean of the products of the centred samples. -/
def centralMoment (x y : Fin 16384 → EReal) : EReal :=
  FloatOps.hostDivf (F := Ideal) (φ := .f32)
    (Ideal.ofBits .f32 0x00000000#32 + ∑ k, (x k - mean x) * (y k - mean y)) batch

/-- The mean from a plain sum. -/
def rawMean (x : Fin 16384 → EReal) : EReal :=
  FloatOps.hostDivf (F := Ideal) (φ := .f32) (∑ k, x k) batch

/-- The second moment about the origin minus the product of the means. -/
def rawMoment (x y : Fin 16384 → EReal) : EReal :=
  FloatOps.hostDivf (F := Ideal) (φ := .f32) (∑ k, x k * y k) batch - rawMean x * rawMean y

end Cert.Whitening

end
-- ==== Proof.Moments.lean ====
/-
  Means and second moments of a column of N = 16384 finite samples.

  Over the reals, the mean of the products of the centred samples equals the mean of the products minus the
  product of the means: expand (x - m)(y - n) and use that the sum of x is N m. On the extended reals the same
  identity holds as soon as every sample is a real number, because every quantity involved is then the
  coercion of a real expression and division by the real N ≠ 0 is multiplication by 1 / N.
  The last statement regroups a sum over the 16384 rows as 16 tiles of 1024 rows.
-/
import proofs.«131606_j26182120636725_2_alg».proof.Proof.Whitening
import Idealize.ShloMosaic.PureOps.Ideal.Laws

noncomputable section

namespace Cert.Whitening

open Idealize.ShloMosaic

/-- The printed batch size denotes the real number 16384 = 2 ^ 14. -/
theorem batch_eq : batch = ((16384 : ℝ) : EReal) := by
  simp [Ideal.ofBits, Ideal.ieee, -EReal.coe_mul]; norm_num

/-- Starting the sum from the printed zero changes nothing. -/
theorem mean_eq_rawMean (x : Fin 16384 → EReal) : mean x = rawMean x := by
  unfold mean rawMean
  rw [Ideal.ofBits_zero_f32, zero_add]

/-- The coercion of the reals into the extended reals commutes with finite sums of rows. -/
theorem coe_sum_rows (s : Finset (Fin 16384)) (a : Fin 16384 → ℝ) :
    ((∑ k ∈ s, a k : ℝ) : EReal) = ∑ k ∈ s, (a k : EReal) := by
  induction s using Finset.induction_on with
  | empty => simp
  | insert k s hk ih => rw [Finset.sum_insert hk, Finset.sum_insert hk, EReal.coe_add, ih]

/-- The plain mean of real samples is the real number (sum) * (1 / 16384). -/
theorem rawMean_coe (c : Fin 16384 → ℝ) :
    rawMean (fun k => (c k : EReal)) = (((∑ k, c k) * (1 / 16384) : ℝ) : EReal) := by
  have hN : (16384 : ℝ) ≠ 0 := by norm_num
  unfold rawMean
  rw [Ideal.hostDivf_def, batch_eq, Ideal.div_coe hN, ← coe_sum_rows, ← EReal.coe_mul]

/-- The real identity: the central second moment is the raw second moment minus the product of the means. -/
theorem real_moment (a b : Fin 16384 → ℝ) :
    (∑ k, (a k - (∑ j, a j) * (1 / 16384)) * (b k - (∑ j, b j) * (1 / 16384))) * (1 / 16384)
      = (∑ k, a k * b k) * (1 / 16384) - ((∑ k, a k) * (1 / 16384)) * ((∑ k, b k) * (1 / 16384)) := by
  set α : ℝ := (∑ j, a j) * (1 / 16384) with hα
  set β : ℝ := (∑ j, b j) * (1 / 16384) with hβ
  have hterm : ∀ k, (a k - α) * (b k - β) = a k * b k - α * b k - β * a k + α * β := fun k => by ring
  have hsum : ∑ k, (a k - α) * (b k - β)
      = (∑ k, a k * b k) - α * (∑ k, b k) - β * (∑ k, a k) + 16384 * (α * β) := by
    simp only [hterm, Finset.sum_add_distrib, Finset.sum_sub_distrib, ← Finset.mul_sum, Finset.sum_const,
      Finset.card_univ, Fintype.card_fin, nsmul_eq_mul]
    push_cast
    ring
  rw [hsum, hα, hβ]
  ring

theorem centralMoment_eq_rawMoment (x y : Fin 16384 → EReal)
    (hx : ∀ k, ∃ r : ℝ, x k = (r : EReal)) (hy : ∀ k, ∃ r : ℝ, y k = (r : EReal)) :
    centralMoment x y = rawMoment x y := by
  choose a ha using hx
  choose b hb using hy
  obtain rfl : x = fun k => (a k : EReal) := funext ha
  obtain rfl : y = fun k => (b k : EReal) := funext hb
  have hN : (16384 : ℝ) ≠ 0 := by norm_num
  unfold centralMoment rawMoment
  rw [mean_eq_rawMean, mean_eq_rawMean, rawMean_coe a, rawMean_coe b]
  have hL : ∑ k, ((a k : EReal) - (((∑ j, a j) * (1 / 16384) : ℝ) : EReal))
        * ((b k : EReal) - (((∑ j, b j) * (1 / 16384) : ℝ) : EReal))
      = ((∑ k, (a k - (∑ j, a j) * (1 / 16384)) * (b k - (∑ j, b j) * (1 / 16384)) : ℝ) : EReal) := by
    rw [coe_sum_rows]
    refine Finset.sum_congr rfl (fun k _ => ?_)
    simp only [EReal.coe_mul, EReal.coe_sub]
  have hR : ∑ k, (a k : EReal) * (b k : EReal) = ((∑ k, a k * b k : ℝ) : EReal) := by
    rw [coe_sum_rows]
    refine Finset.sum_congr rfl (fun k _ => ?_)
    rw [EReal.coe_mul]
  rw [hL, hR, Ideal.ofBits_zero_f32, zero_add, Ideal.hostDivf_def, Ideal.hostDivf_def, batch_eq,
    Ideal.div_coe hN, Ideal.div_coe hN, ← EReal.coe_mul, ← EReal.coe_mul, ← EReal.coe_mul, ← EReal.coe_sub,
    real_moment]

/-- A sum over the 16384 rows, regrouped as 16 tiles of 1024 rows: row p * 1024 + r. -/
theorem sum_rows_tiles {M : Type*} [AddCommMonoid M] (f : Fin 16384 → M) :
    ∑ k, f k = ∑ p : Fin 16, ∑ r : Fin 1024, f ⟨p.val * 1024 + r.val, by omega⟩ := by
  rw [← Fintype.sum_prod_type (f := fun pr : Fin 16 × Fin 1024 => f ⟨pr.1.val * 1024 + pr.2.val, by omega⟩)]
  symm
  refine Fintype.sum_equiv (finProdFinEquiv : Fin 16 × Fin 1024 ≃ Fin (16 * 1024)) _ _ (fun pr => ?_)
  congr 1
  apply Fin.ext
  simp only [finProdFinEquiv_apply_val]
  ring

end Cert.Whitening

end
-- ==== Proof.ColumnSums.lean ====
/-
  The two cores' partial sums added: a plain sum over all 16384 rows.

  Tile p is rows 1024 p … 1024 p + 1023, so the first core's eight tiles and the second core's eight tiles
  are together the 16 tiles that partition the rows; on the extended reals addition is commutative and
  associative, so adding the two cores' slabs of the statistics array gives, for column j, the sums of
  x, y, x², x·y and y² over every row.
-/
import proofs.«131606_j26182120636725_2_alg».proof.Proof.StatsRegion
import proofs.«131606_j26182120636725_2_alg».proof.Proof.Moments

set_option maxRecDepth 16384

noncomputable section
open Idealize.ShloMosaic Idealize.ShloMosaic.TcCoe Idealize.SL.Sem Idealize.ShloMosaic.ValueIdx
namespace Cert.KernelIdeal.Stats
open Cert.KernelIdeal Cert.KernelIdeal.Gen

/-- The k-th of the five summands of a sample (a, b): a, b, a², a·b, b². -/
def term (k : Fin 5) (a b : EReal) : EReal :=
  match k with
  | 0 => a
  | 1 => b
  | 2 => a * a
  | 3 => a * b
  | 4 => b * b

/-- A tile's increment from the tile's entries read row by row. -/
theorem tile_rows (x y : Vec Ideal S1024x2056 .f32) (X Y : Fin 1024 → EReal) (j : Fin 2056)
    (hx : ∀ r, x (ix2 r j) = X r) (hy : ∀ r, y (ix2 r j) = Y r) (k : Fin 5) :
    tile x y k j = ∑ r : Fin 1024, term k (X r) (Y r) := by
  fin_cases k
  · exact Finset.sum_congr rfl fun r _ => hx r
  · exact Finset.sum_congr rfl fun r _ => hy r
  · exact Finset.sum_congr rfl fun r _ => congrArg₂ (· * ·) (hx r) (hx r)
  · exact Finset.sum_congr rfl fun r _ => congrArg₂ (· * ·) (hx r) (hy r)
  · exact Finset.sum_congr rfl fun r _ => congrArg₂ (· * ·) (hy r) (hy r)

variable (V : (c : Dev nD) → (b : Ref sig .tc) → Buf (Elt Ideal) ((c : Thread nD τ).loc b))

/-- A tile's increment is the sum of the summands over the tile's 1024 rows of the two arrays. -/
theorem tileAt_rows (c : Dev nD) (p : Fin 16) (k : Fin 5) (j : Fin 2056) :
    tileAt V c p.val k j = ∑ r : Fin 1024,
      term k (V c main_v0 (ix2 (⟨p.val * 1024 + r.val, by omega⟩ : Fin 16384) j))
        (V c main_v1 (ix2 (⟨p.val * 1024 + r.val, by omega⟩ : Fin 16384) j)) := by
  have hp : p.val < cfg0.N := by rw [show cfg0.N = 16 from N_0]; exact p.isLt
  exact (tileAt_eq V c p.val hp k j).trans
    (tile_rows (iblk0 V c 0 ⟨p.val, hp⟩) (iblk0 V c 1 ⟨p.val, hp⟩) _ _ j
      (fun r => iblk_x V c ⟨p.val, hp⟩ r j (by show p.val * 1024 + r.val < 16384; omega))
      (fun r => iblk_y V c ⟨p.val, hp⟩ r j (by show p.val * 1024 + r.val < 16384; omega)) k)

/-- The two cores' entries of the statistics array add up to the sum over all rows. -/
theorem colSum_rows (c : Dev nD) (k : Fin 5) (j : Fin 2056) :
    statsArr V c (ix3 (0 : Fin 2) k j) + statsArr V c (ix3 (1 : Fin 2) k j)
      = ∑ n : Fin 16384, term k (V c main_v0 (ix2 n j)) (V c main_v1 (ix2 n j)) := by
  rw [statsArr_apply, statsArr_apply,
    Cert.Whitening.sum_rows_tiles (fun n => term k (V c main_v0 (ix2 n j)) (V c main_v1 (ix2 n j)))]
  have e : ∀ p : Fin 16, (∑ r : Fin 1024, term k (V c main_v0 (ix2 (⟨p.val * 1024 + r.val, by omega⟩ : Fin 16384) j))
      (V c main_v1 (ix2 (⟨p.val * 1024 + r.val, by omega⟩ : Fin 16384) j))) = tileAt V c p.val k j :=
    fun p => (tileAt_rows V c p k j).symm
  rw [Finset.sum_congr rfl fun p _ => e p, ← Finset.sum_range (fun p => tileAt V c p k j),
    show (16 : ℕ) = 8 + 8 from rfl, Finset.sum_range_add]
  show (∑ p ∈ Finset.range 8, tileAt V c (0 + p) k j) + ∑ p ∈ Finset.range 8, tileAt V c (8 + p) k j = _
  simp only [Nat.zero_add]

end Cert.KernelIdeal.Stats
end
-- ==== Proof.HostGlue.lean ====
/-
  The host operations of the kernel's entry function, read at an index.

  Between its two pipelined regions the entry function adds the two cores' partial column sums (Σx, Σy, Σx², Σxy,
  Σy² over each core's half of the 16384 rows), divides by the batch size, forms the second moments
  vrr = Σx²/N − mr·mr, vri = Σxy/N − mr·mi, vii = Σy²/N − mi·mi, the clipped determinant, the whitening entries and
  the four mixing coefficients, all as rows of 2056 columns, and flattens the five 8×257 parameter arrays to such
  rows. Every one of these operations is pointwise in the column, a slice, a broadcast of a constant, or a
  reshape; so each buffer, read at one column, is the corresponding scalar function of the column sums and of
  the parameters at that column. Before the first region and after the second, two reshapes pass between the
  16384×8×257 and the 16384×2056 layouts: row n, column c·257 + f is entry (n, c, f).
-/
import proofs.«131606_j26182120636725_2_alg».proof.Proof.Gen.KernelIdeal.Launch
import proofs.«131606_j26182120636725_2_alg».proof.Proof.Whitening
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Glue

open Cert.KernelIdeal Cert.KernelIdeal.Gen Cert.Whitening Idealize.ShloMosaic Idealize.ShloMosaic.ValueIdx Idealize.ShloMosaic.StableHlo

variable (Wv : Valuation τ sig (Elt Ideal))

/-! ## The column statistics the host operations form from the two cores' partial sums -/

/-- The k-th column sum (Σx, Σy, Σx², Σxy, Σy² for k = 0 … 4) of column j: the two cores' halves added. -/
def colSum (k : Fin 5) (j : Fin 2056) : EReal :=
  FloatOps.addf (F := Ideal) (φ := .f32) (Wv (Proc.devRef .tc main_v2) (ix3 (0 : Fin 2) k j))
    (Wv (Proc.devRef .tc main_v2) (ix3 (1 : Fin 2) k j))

/-- The mean of x. -/
def mR (j : Fin 2056) : EReal := FloatOps.hostDivf (F := Ideal) (φ := .f32) (colSum Wv 0 j) batch
/-- The mean of y. -/
def mI (j : Fin 2056) : EReal := FloatOps.hostDivf (F := Ideal) (φ := .f32) (colSum Wv 1 j) batch
/-- Σx²/N − mr·mr. -/
def vRR (j : Fin 2056) : EReal :=
  FloatOps.subf (F := Ideal) (φ := .f32) (FloatOps.hostDivf (F := Ideal) (φ := .f32) (colSum Wv 2 j) batch)
    (FloatOps.mulf (F := Ideal) (φ := .f32) (mR Wv j) (mR Wv j))
/-- Σxy/N − mr·mi. -/
def vRI (j : Fin 2056) : EReal :=
  FloatOps.subf (F := Ideal) (φ := .f32) (FloatOps.hostDivf (F := Ideal) (φ := .f32) (colSum Wv 3 j) batch)
    (FloatOps.mulf (F := Ideal) (φ := .f32) (mR Wv j) (mI Wv j))
/-- Σy²/N − mi·mi. -/
def vII (j : Fin 2056) : EReal :=
  FloatOps.subf (F := Ideal) (φ := .f32) (FloatOps.hostDivf (F := Ideal) (φ := .f32) (colSum Wv 4 j) batch)
    (FloatOps.mulf (F := Ideal) (φ := .f32) (mI Wv j) (mI Wv j))

/-! ## Layout operations read at an index -/

/-- Core h's plane of the 2×5×2056 array, read at row k and column j. -/
theorem plane_read (X : S2x5x2056.Idx → EReal) (o : Nat) (hs : S2x5x2056.Slices ![o, 0, 0] S1x5x2056)
    (h : Fin 2) (ho : h.val = o) (k : Fin 5) (j : Fin 2056) :
    extractStridedSlice S1x5x2056 ![o, 0, 0] X hs (ix3 (0 : Fin 1) k j) = X (ix3 h k j) :=
  extractStridedSlice_apply _ _ _ _ _ (fun ax => by
    match ax with
    | ⟨0, _⟩ => exact ho
    | ⟨1, _⟩ => exact (Nat.zero_add _).symm
    | ⟨2, _⟩ => exact (Nat.zero_add _).symm)

/-- Row o of the sum of the two cores' planes, read at column j, is the column sum. -/
theorem colSum_read (o : Nat) (hs : S5x2056.Slices ![o, 0] S1x2056) (k : Fin 5) (hk : k.val = o) (j : Fin 2056) :
    extractStridedSlice S1x2056 ![o, 0]
      (addf (F := Ideal) (φ := .f32)
        (fun i => shapeCast S5x2056
          (extractStridedSlice S1x5x2056 ![0, 0, 0] (Wv (Proc.devRef .tc main_v2)) slices_S2x5x2056_S1x5x2056_0_0_0)
          shapeCasts_S1x5x2056_S5x2056 i)
        (fun i => shapeCast S5x2056
          (extractStridedSlice S1x5x2056 ![1, 0, 0] (Wv (Proc.devRef .tc main_v2)) slices_S2x5x2056_S1x5x2056_1_0_0)
          shapeCasts_S1x5x2056_S5x2056 i)) hs (ix2 (0 : Fin 1) j)
      = colSum Wv k j := by
  rw [slice2_axis0_apply o _ hs (0 : Fin 1) j k (by simpa using hk)]
  show FloatOps.addf (F := Ideal) (φ := .f32) (shapeCast S5x2056 _ _ (ix2 k j)) (shapeCast S5x2056 _ _ (ix2 k j)) = _
  rw [shapeCast_1ab_ab_apply, shapeCast_1ab_ab_apply, plane_read _ 0 _ (0 : Fin 2) rfl, plane_read _ 1 _ (1 : Fin 2) rfl]
  rfl

set_option maxHeartbeats 400000 in
/-- The mean of x, as the first stretch of host operations leaves it. -/
theorem s1_v14 (j : Fin 2056) :
    StableHlo.after (hostOps1 (F := Ideal)) Wv (Proc.devRef .tc main_v14) (ix2 (0 : Fin 1) j) = mR Wv j := by
  after_results_simp
  unfold mR
  rw [← colSum_read Wv 0 slices_S5x2056_S1x2056_0_0 0 rfl j]
  rfl

set_option maxHeartbeats 400000 in
/-- The mean of y. -/
theorem s1_v16 (j : Fin 2056) :
    StableHlo.after (hostOps1 (F := Ideal)) Wv (Proc.devRef .tc main_v16) (ix2 (0 : Fin 1) j) = mI Wv j := by
  after_results_simp
  unfold mI
  rw [← colSum_read Wv 1 slices_S5x2056_S1x2056_1_0 1 rfl j]
  rfl

set_option maxHeartbeats 400000 in
theorem s1_v20 (j : Fin 2056) :
    StableHlo.after (hostOps1 (F := Ideal)) Wv (Proc.devRef .tc main_v20) (ix2 (0 : Fin 1) j) = vRR Wv j := by
  after_results_simp
  unfold vRR mR
  rw [← colSum_read Wv 0 slices_S5x2056_S1x2056_0_0 0 rfl j, ← colSum_read Wv 2 slices_S5x2056_S1x2056_2_0 2 rfl j]
  rfl

set_option maxHeartbeats 400000 in
theorem s1_v24 (j : Fin 2056) :
    StableHlo.after (hostOps1 (F := Ideal)) Wv (Proc.devRef .tc main_v24) (ix2 (0 : Fin 1) j) = vRI Wv j := by
  after_results_simp
  unfold vRI mR mI
  rw [← colSum_read Wv 0 slices_S5x2056_S1x2056_0_0 0 rfl j, ← colSum_read Wv 1 slices_S5x2056_S1x2056_1_0 1 rfl j,
    ← colSum_read Wv 3 slices_S5x2056_S1x2056_3_0 3 rfl j]
  rfl

set_option maxHeartbeats 400000 in
theorem s1_v28 (j : Fin 2056) :
    StableHlo.after (hostOps1 (F := Ideal)) Wv (Proc.devRef .tc main_v28) (ix2 (0 : Fin 1) j) = vII Wv j := by
  after_results_simp
  unfold vII mI
  rw [← colSum_read Wv 1 slices_S5x2056_S1x2056_1_0 1 rfl j, ← colSum_read Wv 4 slices_S5x2056_S1x2056_4_0 4 rfl j]
  rfl

set_option maxHeartbeats 400000 in
/-- The trace vrr + vii. -/
theorem s1_v29 (j : Fin 2056) :
    StableHlo.after (hostOps1 (F := Ideal)) Wv (Proc.devRef .tc main_v29) (ix2 (0 : Fin 1) j)
      = FloatOps.addf (F := Ideal) (φ := .f32) (vRR Wv j) (vII Wv j) := by
  after_results_simp
  unfold vRR vII mR mI
  rw [← colSum_read Wv 0 slices_S5x2056_S1x2056_0_0 0 rfl j, ← colSum_read Wv 1 slices_S5x2056_S1x2056_1_0 1 rfl j,
    ← colSum_read Wv 2 slices_S5x2056_S1x2056_2_0 2 rfl j, ← colSum_read Wv 4 slices_S5x2056_S1x2056_4_0 4 rfl j]
  rfl

set_option maxHeartbeats 400000 in
/-- The determinant vrr·vii − vri·vri. -/
theorem s1_v32 (j : Fin 2056) :
    StableHlo.after (hostOps1 (F := Ideal)) Wv (Proc.devRef .tc main_v32) (ix2 (0 : Fin 1) j)
      = FloatOps.subf (F := Ideal) (φ := .f32) (FloatOps.mulf (F := Ideal) (φ := .f32) (vRR Wv j) (vII Wv j))
          (FloatOps.mulf (F := Ideal) (φ := .f32) (vRI Wv j) (vRI Wv j)) := by
  after_results_simp
  unfold vRR vRI vII mR mI
  rw [← colSum_read Wv 0 slices_S5x2056_S1x2056_0_0 0 rfl j, ← colSum_read Wv 1 slices_S5x2056_S1x2056_1_0 1 rfl j,
    ← colSum_read Wv 2 slices_S5x2056_S1x2056_2_0 2 rfl j, ← colSum_read Wv 3 slices_S5x2056_S1x2056_3_0 3 rfl j,
    ← colSum_read Wv 4 slices_S5x2056_S1x2056_4_0 4 rfl j]
  rfl

/-- The two clipping bounds are written by the first stretch. -/
theorem s1_cst4 (k : S_.Idx) :
    StableHlo.after (hostOps1 (F := Ideal)) Wv (Proc.devRef .tc main_cst_4) k = FloatOps.ofBits (F := Ideal) .f32 0x358637BD#32 := by
  after_results_simp
  rfl
theorem s1_cst5 (k : S_.Idx) :
    StableHlo.after (hostOps1 (F := Ideal)) Wv (Proc.devRef .tc main_cst_5) k = FloatOps.ofBits (F := Ideal) .f32 0x4CBEBC20#32 := by
  after_results_simp
  rfl

/-! ## The clipping, outlined as its own function -/

/-- The clipped determinant, from the determinant and the two bounds the first stretch left. -/
theorem s2_v33 (V : Valuation τ sig (Elt Ideal)) (i : S1x2056.Idx) (vrr vri vii : EReal)
    (h4 : ∀ k : S_.Idx, V (Proc.devRef .tc main_cst_4) k = FloatOps.ofBits (F := Ideal) .f32 0x358637BD#32)
    (h5 : ∀ k : S_.Idx, V (Proc.devRef .tc main_cst_5) k = FloatOps.ofBits (F := Ideal) .f32 0x4CBEBC20#32)
    (h32 : V (Proc.devRef .tc main_v32) i
      = FloatOps.subf (F := Ideal) (φ := .f32) (FloatOps.mulf (F := Ideal) (φ := .f32) vrr vii)
          (FloatOps.mulf (F := Ideal) (φ := .f32) vri vri)) :
    StableHlo.after (hostOps1_1 (F := Ideal)) V (Proc.devRef .tc main_v33) i = clippedDet (F := Ideal) vrr vri vii := by
  after_results_simp
  show FloatOps.minimumf (F := Ideal) (φ := .f32) (V (Proc.devRef .tc main_cst_5) _)
    (FloatOps.maximumf (F := Ideal) (φ := .f32) (V (Proc.devRef .tc main_cst_4) _) (V (Proc.devRef .tc main_v32) i)) = _
  rw [h4, h5, h32]
  rfl

/-! ## The whitening and mixing coefficients, from the moments -/

section Stage3
variable (V : Valuation τ sig (Elt Ideal)) (i : S1x2056.Idx) (vrr vri vii w1 w2 : EReal)
  (h20 : V (Proc.devRef .tc main_v20) i = vrr) (h24 : V (Proc.devRef .tc main_v24) i = vri)
  (h28 : V (Proc.devRef .tc main_v28) i = vii)
  (h29 : V (Proc.devRef .tc main_v29) i = FloatOps.addf (F := Ideal) (φ := .f32) vrr vii)
  (h33 : V (Proc.devRef .tc main_v33) i = clippedDet (F := Ideal) vrr vri vii)
include h20 h24 h28 h29 h33

theorem s3_zrr
    (hw1 : shapeCast S1x2056 (V (Proc.devRef .tc main_arg2)) shapeCasts_S8x257_S1x2056 i = w1)
    (hw2 : shapeCast S1x2056 (V (Proc.devRef .tc main_arg3)) shapeCasts_S8x257_S1x2056 i = w2) :
    StableHlo.after (hostOps1_2 (F := Ideal)) V (Proc.devRef .tc main_v55) i = zRR (F := Ideal) vrr vri vii w1 w2 := by
  subst h20 h24 h28 hw1 hw2
  after_results_simp
  unfold zRR uRR uRI invNorm rootTrace rootDet
  rw [← h33, ← h29]
  rfl

theorem s3_zri
    (hw1 : shapeCast S1x2056 (V (Proc.devRef .tc main_arg2)) shapeCasts_S8x257_S1x2056 i = w1)
    (hw2 : shapeCast S1x2056 (V (Proc.devRef .tc main_arg3)) shapeCasts_S8x257_S1x2056 i = w2) :
    StableHlo.after (hostOps1_2 (F := Ideal)) V (Proc.devRef .tc main_v58) i = zRI (F := Ideal) vrr vri vii w1 w2 := by
  subst h20 h24 h28 hw1 hw2
  after_results_simp
  unfold zRI uRI uII invNorm rootTrace rootDet
  rw [← h33, ← h29]
  rfl

theorem s3_zir
    (hw1 : shapeCast S1x2056 (V (Proc.devRef .tc main_arg3)) shapeCasts_S8x257_S1x2056 i = w1)
    (hw2 : shapeCast S1x2056 (V (Proc.devRef .tc main_arg4)) shapeCasts_S8x257_S1x2056 i = w2) :
    StableHlo.after (hostOps1_2 (F := Ideal)) V (Proc.devRef .tc main_v61) i = zIR (F := Ideal) vrr vri vii w1 w2 := by
  subst h20 h24 h28 hw1 hw2
  after_results_simp
  unfold zIR uRR uRI invNorm rootTrace rootDet
  rw [← h33, ← h29]
  rfl

theorem s3_zii
    (hw1 : shapeCast S1x2056 (V (Proc.devRef .tc main_arg3)) shapeCasts_S8x257_S1x2056 i = w1)
    (hw2 : shapeCast S1x2056 (V (Proc.devRef .tc main_arg4)) shapeCasts_S8x257_S1x2056 i = w2) :
    StableHlo.after (hostOps1_2 (F := Ideal)) V (Proc.devRef .tc main_v64) i = zII (F := Ideal) vrr vri vii w1 w2 := by
  subst h20 h24 h28 hw1 hw2
  after_results_simp
  unfold zII uRI uII invNorm rootTrace rootDet
  rw [← h33, ← h29]
  rfl

end Stage3

/-- The two bias rows are the bias arrays flattened. -/
theorem s3_br (V : Valuation τ sig (Elt Ideal)) (i : S1x2056.Idx) :
    StableHlo.after (hostOps1_2 (F := Ideal)) V (Proc.devRef .tc main_v51) i
      = shapeCast S1x2056 (V (Proc.devRef .tc main_arg5)) shapeCasts_S8x257_S1x2056 i := by
  after_results_simp
  rfl
theorem s3_bi (V : Valuation τ sig (Elt Ideal)) (i : S1x2056.Idx) :
    StableHlo.after (hostOps1_2 (F := Ideal)) V (Proc.devRef .tc main_v52) i
      = shapeCast S1x2056 (V (Proc.devRef .tc main_arg6)) shapeCasts_S8x257_S1x2056 i := by
  after_results_simp
  rfl

/-! ## Reshapes between the 8×257 parameter grid and the 2056 columns -/

/-- The column of channel c and feature f. -/
abbrev col (c : Fin 8) (f : Fin 257) : Fin 2056 := ⟨c.val * 257 + f.val, by omega⟩

/-- An 8×257 array flattened to one row of 2056 columns, read at column c·257 + f. -/
theorem param_read (X : S8x257.Idx → EReal) (c : Fin 8) (f : Fin 257) :
    shapeCast S1x2056 X shapeCasts_S8x257_S1x2056 (ix2 (0 : Fin 1) (col c f)) = X (ix2 c f) :=
  shapeCast_apply X _ _ _ (by
    rw [Shape.rowMajor_val_two, Shape.rowMajor_val_two]
    show c.val * 257 + f.val = 0 * 2056 + (c.val * 257 + f.val)
    omega)

/-- A 16384×8×257 array flattened to 16384×2056, read at row n and column c·257 + f. -/
theorem sample_read (X : S16384x8x257.Idx → EReal) (n : Fin 16384) (c : Fin 8) (f : Fin 257) :
    shapeCast S16384x2056 X shapeCasts_S16384x8x257_S16384x2056 (ix2 n (col c f)) = X (ix3 n c f) :=
  shapeCast_apply X _ _ _ (by
    rw [Shape.rowMajor_val_three, Shape.rowMajor_val_two]
    show (n.val * 8 + c.val) * 257 + f.val = n.val * 2056 + (c.val * 257 + f.val)
    omega)

/-- A 16384×2056 array unflattened to 16384×8×257, read at (n, c, f). -/
theorem result_read (X : S16384x2056.Idx → EReal) (n : Fin 16384) (c : Fin 8) (f : Fin 257) :
    shapeCast S16384x8x257 X shapeCasts_S16384x2056_S16384x8x257 (ix3 n c f) = X (ix2 n (col c f)) :=
  shapeCast_apply X _ _ _ (by
    rw [Shape.rowMajor_val_three, Shape.rowMajor_val_two]
    show n.val * 2056 + (c.val * 257 + f.val) = (n.val * 8 + c.val) * 257 + f.val
    omega)

theorem reshape_in0 (n : Fin 16384) (c : Fin 8) (f : Fin 257) :
    StableHlo.after (hostOps0 (F := Ideal)) Wv (Proc.devRef .tc main_v0) (ix2 n (col c f))
      = Wv (Proc.devRef .tc main_arg0) (ix3 n c f) := by
  after_results_simp
  exact sample_read _ n c f
theorem reshape_in1 (n : Fin 16384) (c : Fin 8) (f : Fin 257) :
    StableHlo.after (hostOps0 (F := Ideal)) Wv (Proc.devRef .tc main_v1) (ix2 n (col c f))
      = Wv (Proc.devRef .tc main_arg1) (ix3 n c f) := by
  after_results_simp
  exact sample_read _ n c f
theorem reshape_out0 (n : Fin 16384) (c : Fin 8) (f : Fin 257) :
    StableHlo.after (hostOps2 (F := Ideal)) Wv (Proc.devRef .tc main_v66) (ix3 n c f)
      = Wv (Proc.devRef .tc main_v65_0) (ix2 n (col c f)) := by
  after_results_simp
  exact result_read _ n c f
theorem reshape_out1 (n : Fin 16384) (c : Fin 8) (f : Fin 257) :
    StableHlo.after (hostOps2 (F := Ideal)) Wv (Proc.devRef .tc main_v67) (ix3 n c f)
      = Wv (Proc.devRef .tc main_v65_1) (ix2 n (col c f)) := by
  after_results_simp
  exact result_read _ n c f

/-! ## The three stretches between the two regions, composed -/

/-- The buffers after the 76 host operations between the two regions. -/
abbrev mid : Valuation τ sig (Elt Ideal) :=
  StableHlo.after (hostOps1_2 (F := Ideal)) (StableHlo.after (hostOps1_1 (F := Ideal)) (StableHlo.after (hostOps1 (F := Ideal)) Wv))

/-- No operation of the three stretches writes the flattened samples. -/
theorem glue_x : mid Wv (Proc.devRef .tc main_v0) = Wv (Proc.devRef .tc main_v0) := by
  show StableHlo.after _ (StableHlo.after _ (StableHlo.after _ Wv)) _ = _
  after_results_simp
theorem glue_y : mid Wv (Proc.devRef .tc main_v1) = Wv (Proc.devRef .tc main_v1) := by
  show StableHlo.after _ (StableHlo.after _ (StableHlo.after _ Wv)) _ = _
  after_results_simp

/-- The second and third stretches leave the means where the first put them. -/
theorem glue_mr (j : Fin 2056) : mid Wv (Proc.devRef .tc main_v14) (ix2 (0 : Fin 1) j) = mR Wv j := by
  have e : mid Wv (Proc.devRef .tc main_v14)
      = StableHlo.after (hostOps1 (F := Ideal)) Wv (Proc.devRef .tc main_v14) := by
    show StableHlo.after _ (StableHlo.after _ (StableHlo.after (hostOps1 (F := Ideal)) Wv)) _ = _
    generalize StableHlo.after (hostOps1 (F := Ideal)) Wv = W1
    after_results_simp
  rw [e]
  exact s1_v14 Wv j
theorem glue_mi (j : Fin 2056) : mid Wv (Proc.devRef .tc main_v16) (ix2 (0 : Fin 1) j) = mI Wv j := by
  have e : mid Wv (Proc.devRef .tc main_v16)
      = StableHlo.after (hostOps1 (F := Ideal)) Wv (Proc.devRef .tc main_v16) := by
    show StableHlo.after _ (StableHlo.after _ (StableHlo.after (hostOps1 (F := Ideal)) Wv)) _ = _
    generalize StableHlo.after (hostOps1 (F := Ideal)) Wv = W1
    after_results_simp
  rw [e]
  exact s1_v16 Wv j

/-- The buffers after the first two of the three stretches. -/
abbrev mid2 : Valuation τ sig (Elt Ideal) :=
  StableHlo.after (hostOps1_1 (F := Ideal)) (StableHlo.after (hostOps1 (F := Ideal)) Wv)

/-- The clipping writes none of the moments. -/
theorem mid2_v20 (j : Fin 2056) : mid2 Wv (Proc.devRef .tc main_v20) (ix2 (0 : Fin 1) j) = vRR Wv j := by
  have e : mid2 Wv (Proc.devRef .tc main_v20) = StableHlo.after (hostOps1 (F := Ideal)) Wv (Proc.devRef .tc main_v20) := by
    show StableHlo.after _ (StableHlo.after (hostOps1 (F := Ideal)) Wv) _ = _
    generalize StableHlo.after (hostOps1 (F := Ideal)) Wv = W1
    after_results_simp
  rw [e]
  exact s1_v20 Wv j
theorem mid2_v24 (j : Fin 2056) : mid2 Wv (Proc.devRef .tc main_v24) (ix2 (0 : Fin 1) j) = vRI Wv j := by
  have e : mid2 Wv (Proc.devRef .tc main_v24) = StableHlo.after (hostOps1 (F := Ideal)) Wv (Proc.devRef .tc main_v24) := by
    show StableHlo.after _ (StableHlo.after (hostOps1 (F := Ideal)) Wv) _ = _
    generalize StableHlo.after (hostOps1 (F := Ideal)) Wv = W1
    after_results_simp
  rw [e]
  exact s1_v24 Wv j
theorem mid2_v28 (j : Fin 2056) : mid2 Wv (Proc.devRef .tc main_v28) (ix2 (0 : Fin 1) j) = vII Wv j := by
  have e : mid2 Wv (Proc.devRef .tc main_v28) = StableHlo.after (hostOps1 (F := Ideal)) Wv (Proc.devRef .tc main_v28) := by
    show StableHlo.after _ (StableHlo.after (hostOps1 (F := Ideal)) Wv) _ = _
    generalize StableHlo.after (hostOps1 (F := Ideal)) Wv = W1
    after_results_simp
  rw [e]
  exact s1_v28 Wv j
theorem mid2_v29 (j : Fin 2056) :
    mid2 Wv (Proc.devRef .tc main_v29) (ix2 (0 : Fin 1) j) = FloatOps.addf (F := Ideal) (φ := .f32) (vRR Wv j) (vII Wv j) := by
  have e : mid2 Wv (Proc.devRef .tc main_v29) = StableHlo.after (hostOps1 (F := Ideal)) Wv (Proc.devRef .tc main_v29) := by
    show StableHlo.after _ (StableHlo.after (hostOps1 (F := Ideal)) Wv) _ = _
    generalize StableHlo.after (hostOps1 (F := Ideal)) Wv = W1
    after_results_simp
  rw [e]
  exact s1_v29 Wv j
/-- The clipped determinant of the column's covariance. -/
theorem mid2_v33 (j : Fin 2056) :
    mid2 Wv (Proc.devRef .tc main_v33) (ix2 (0 : Fin 1) j) = clippedDet (F := Ideal) (vRR Wv j) (vRI Wv j) (vII Wv j) :=
  s2_v33 _ _ _ _ _ (s1_cst4 Wv) (s1_cst5 Wv) (s1_v32 Wv j)

/-- The first two stretches write none of the parameter arrays. -/
theorem mid2_arg2 : mid2 Wv (Proc.devRef .tc main_arg2) = Wv (Proc.devRef .tc main_arg2) := by
  show StableHlo.after _ (StableHlo.after _ Wv) _ = _
  after_results_simp
theorem mid2_arg3 : mid2 Wv (Proc.devRef .tc main_arg3) = Wv (Proc.devRef .tc main_arg3) := by
  show StableHlo.after _ (StableHlo.after _ Wv) _ = _
  after_results_simp
theorem mid2_arg4 : mid2 Wv (Proc.devRef .tc main_arg4) = Wv (Proc.devRef .tc main_arg4) := by
  show StableHlo.after _ (StableHlo.after _ Wv) _ = _
  after_results_simp
theorem mid2_arg5 : mid2 Wv (Proc.devRef .tc main_arg5) = Wv (Proc.devRef .tc main_arg5) := by
  show StableHlo.after _ (StableHlo.after _ Wv) _ = _
  after_results_simp
theorem mid2_arg6 : mid2 Wv (Proc.devRef .tc main_arg6) = Wv (Proc.devRef .tc main_arg6) := by
  show StableHlo.after _ (StableHlo.after _ Wv) _ = _
  after_results_simp

/-- The four mixing coefficients Z = W U of column c·257 + f. -/
theorem glue_zrr (c : Fin 8) (f : Fin 257) :
    mid Wv (Proc.devRef .tc main_v55) (ix2 (0 : Fin 1) (col c f))
      = zRR (F := Ideal) (vRR Wv (col c f)) (vRI Wv (col c f)) (vII Wv (col c f))
          (Wv (Proc.devRef .tc main_arg2) (ix2 c f)) (Wv (Proc.devRef .tc main_arg3) (ix2 c f)) :=
  s3_zrr (mid2 Wv) _ _ _ _ _ _ (mid2_v20 Wv _) (mid2_v24 Wv _) (mid2_v28 Wv _) (mid2_v29 Wv _) (mid2_v33 Wv _)
    (by rw [mid2_arg2]; exact param_read _ c f) (by rw [mid2_arg3]; exact param_read _ c f)
theorem glue_zri (c : Fin 8) (f : Fin 257) :
    mid Wv (Proc.devRef .tc main_v58) (ix2 (0 : Fin 1) (col c f))
      = zRI (F := Ideal) (vRR Wv (col c f)) (vRI Wv (col c f)) (vII Wv (col c f))
          (Wv (Proc.devRef .tc main_arg2) (ix2 c f)) (Wv (Proc.devRef .tc main_arg3) (ix2 c f)) :=
  s3_zri (mid2 Wv) _ _ _ _ _ _ (mid2_v20 Wv _) (mid2_v24 Wv _) (mid2_v28 Wv _) (mid2_v29 Wv _) (mid2_v33 Wv _)
    (by rw [mid2_arg2]; exact param_read _ c f) (by rw [mid2_arg3]; exact param_read _ c f)
theorem glue_zir (c : Fin 8) (f : Fin 257) :
    mid Wv (Proc.devRef .tc main_v61) (ix2 (0 : Fin 1) (col c f))
      = zIR (F := Ideal) (vRR Wv (col c f)) (vRI Wv (col c f)) (vII Wv (col c f))
          (Wv (Proc.devRef .tc main_arg3) (ix2 c f)) (Wv (Proc.devRef .tc main_arg4) (ix2 c f)) :=
  s3_zir (mid2 Wv) _ _ _ _ _ _ (mid2_v20 Wv _) (mid2_v24 Wv _) (mid2_v28 Wv _) (mid2_v29 Wv _) (mid2_v33 Wv _)
    (by rw [mid2_arg3]; exact param_read _ c f) (by rw [mid2_arg4]; exact param_read _ c f)
theorem glue_zii (c : Fin 8) (f : Fin 257) :
    mid Wv (Proc.devRef .tc main_v64) (ix2 (0 : Fin 1) (col c f))
      = zII (F := Ideal) (vRR Wv (col c f)) (vRI Wv (col c f)) (vII Wv (col c f))
          (Wv (Proc.devRef .tc main_arg3) (ix2 c f)) (Wv (Proc.devRef .tc main_arg4) (ix2 c f)) :=
  s3_zii (mid2 Wv) _ _ _ _ _ _ (mid2_v20 Wv _) (mid2_v24 Wv _) (mid2_v28 Wv _) (mid2_v29 Wv _) (mid2_v33 Wv _)
    (by rw [mid2_arg3]; exact param_read _ c f) (by rw [mid2_arg4]; exact param_read _ c f)

/-- The two biases of column c·257 + f. -/
theorem glue_br (c : Fin 8) (f : Fin 257) :
    mid Wv (Proc.devRef .tc main_v51) (ix2 (0 : Fin 1) (col c f)) = Wv (Proc.devRef .tc main_arg5) (ix2 c f) := by
  rw [show mid Wv (Proc.devRef .tc main_v51) (ix2 (0 : Fin 1) (col c f))
      = shapeCast S1x2056 (mid2 Wv (Proc.devRef .tc main_arg5)) shapeCasts_S8x257_S1x2056 (ix2 (0 : Fin 1) (col c f)) from
    s3_br (mid2 Wv) _, mid2_arg5]
  exact param_read _ c f
theorem glue_bi (c : Fin 8) (f : Fin 257) :
    mid Wv (Proc.devRef .tc main_v52) (ix2 (0 : Fin 1) (col c f)) = Wv (Proc.devRef .tc main_arg6) (ix2 c f) := by
  rw [show mid Wv (Proc.devRef .tc main_v52) (ix2 (0 : Fin 1) (col c f))
      = shapeCast S1x2056 (mid2 Wv (Proc.devRef .tc main_arg6)) shapeCasts_S8x257_S1x2056 (ix2 (0 : Fin 1) (col c f)) from
    s3_bi (mid2 Wv) _, mid2_arg6]
  exact param_read _ c f

end Cert.KernelIdeal.Glue

end
-- ==== Proof.AffineRegion.lean ====
/-
  The affine region, read as whole arrays.

  The second pipelined region visits 32 grid points; point t holds rows 512 t … 512 t + 511 of the two sample arrays
  (16384 x 2056 after the reshape) and of the two outputs, and the whole of eight 1 x 2056 row vectors (two means, four
  mixing coefficients, two offsets). At every entry of its block the body computes
      zr · (x − mr) + zi · (y − mi) + b,
  the row vectors broadcast down the 512 rows. Since the blocks of the 32 points tile the outputs, each output array
  ends as that one function of the arrays the region found, entry by entry.
-/
import proofs.«131606_j26182120636725_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Affine

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]
variable (V : (c : Dev nD) → (b : Ref sig .tc) → Buf (Elt F) ((c : Thread nD τ).loc b))

/-! ## The body's arithmetic at one entry of a block -/

/-- zr · (x − mr) + zi · (y − mi) + b at one entry. -/
def affine (zr zi mr mi b x y : F .f32) : F .f32 :=
  FloatOps.addf (FloatOps.addf (FloatOps.mulf zr (FloatOps.subf x mr)) (FloatOps.mulf zi (FloatOps.subf y mi))) b

/-- The first output's payload at row r, column j of the block: the row vectors are read at column j. -/
theorem pay_re_apply (mr mi zr zi b : Vec F S1x2056 .f32) (x y : Vec F S512x2056 .f32) (r : Fin 512) (j : Fin 2056) :
    k1_pay5 mr mi zr zi b x y (ix2 r j)
      = affine (zr (ix2 0 j)) (zi (ix2 0 j)) (mr (ix2 0 j)) (mi (ix2 0 j)) (b (ix2 0 j)) (x (ix2 r j)) (y (ix2 r j)) := by
  unfold k1_pay5 k1_pay3 k1_pay4 affine
  simp only [shapeCast_self]
  show FloatOps.addf (FloatOps.addf
      (FloatOps.mulf (broadcastTo S512x2056 zr broadcasts_S1x2056_S512x2056 (ix2 r j))
        (FloatOps.subf (x (ix2 r j)) (broadcastTo S512x2056 mr broadcasts_S1x2056_S512x2056 (ix2 r j))))
      (FloatOps.mulf (broadcastTo S512x2056 zi broadcasts_S1x2056_S512x2056 (ix2 r j))
        (FloatOps.subf (y (ix2 r j)) (broadcastTo S512x2056 mi broadcasts_S1x2056_S512x2056 (ix2 r j)))))
      (broadcastTo S512x2056 b broadcasts_S1x2056_S512x2056 (ix2 r j)) = _
  simp only [broadcastTo_1b_ab_apply]

/-- The second output's payload at row r, column j of the block. -/
theorem pay_im_apply (mr mi zr zi b : Vec F S1x2056 .f32) (x y : Vec F S512x2056 .f32) (r : Fin 512) (j : Fin 2056) :
    k1_pay1 (k1_pay2 b) (k1_pay6 mr zr x) (k1_pay7 mi zi y) (ix2 r j)
      = affine (zr (ix2 0 j)) (zi (ix2 0 j)) (mr (ix2 0 j)) (mi (ix2 0 j)) (b (ix2 0 j)) (x (ix2 r j)) (y (ix2 r j)) := by
  unfold k1_pay1 k1_pay2 k1_pay6 k1_pay7 k1_pay3 k1_pay4 affine
  simp only [shapeCast_self]
  show FloatOps.addf (FloatOps.addf
      (FloatOps.mulf (broadcastTo S512x2056 zr broadcasts_S1x2056_S512x2056 (ix2 r j))
        (FloatOps.subf (x (ix2 r j)) (broadcastTo S512x2056 mr broadcasts_S1x2056_S512x2056 (ix2 r j))))
      (FloatOps.mulf (broadcastTo S512x2056 zi broadcasts_S1x2056_S512x2056 (ix2 r j))
        (FloatOps.subf (y (ix2 r j)) (broadcastTo S512x2056 mi broadcasts_S1x2056_S512x2056 (ix2 r j)))))
      (broadcastTo S512x2056 b broadcasts_S1x2056_S512x2056 (ix2 r j)) = _
  simp only [broadcastTo_1b_ab_apply]

/-! ## Where each window's block sits at a point -/

theorem hz : (![0, 0] : Fin 2 → Nat) = fun _ => 0 := funext fun a => by fin_cases a <;> rfl

/-- The grid has 32 points. -/
theorem lt_32 (t : Fin cfg1.N) : t.val < 32 :=
  lt_of_lt_of_eq t.isLt (N_1 : cfg1.N = 32)

/-- The printed index maps, decided over the grid: the sample and output windows are at block row t, the row
    vectors at their one block. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = t.val ∧ win1_10.index t (1 : Fin 2) = 0)
    ∧ (win1_11.index t (0 : Fin 2) = t.val ∧ win1_11.index t (1 : Fin 2) = 0) :=
  (by decide +kernel : ∀ t : Fin grid1.N, _)

/-- Entry (r, j) of the first sample window's block at point t is entry (512 t + r, j) of its array. -/
theorem blk0_apply (c : Dev nD) (t : Fin cfg1.N) (r : Fin 512) (j : Fin 2056) (n : Fin 16384) (hn : n.val = t.val * 512 + r.val) :
    (iblk1 V c 0 t : Vec F S512x2056 .f32) (ix2 r j) = (V c main_v0 : S16384x2056.Idx → F .f32) (ix2 n j) := by
  obtain ⟨⟨e0, e1⟩, -⟩ := idx_facts t
  unfold iblk1
  rw [View.read_apply]
  show V c main_v0 _ = V c main_v0 _
  congr 1
  funext a
  apply Fin.ext
  match a with
  | ⟨0, _⟩ => show win1_0.index t 0 * 512 + 1 * r.val = n.val; rw [e0, hn]; omega
  | ⟨1, _⟩ => show win1_0.index t 1 * 2056 + 1 * j.val = j.val; rw [e1]; omega

/-- Entry (0, j) of the first mean's window at any point is entry (0, j) of its array. -/
theorem blk2_apply (c : Dev nD) (t : Fin cfg1.N) (j : Fin 2056) :
    (iblk1 V c 2 t : Vec F S1x2056 .f32) (ix2 0 j) = (V c main_v14 : S1x2056.Idx → F .f32) (ix2 0 j) := by
  obtain ⟨-, -, ⟨e0, e1⟩, -⟩ := idx_facts t
  unfold iblk1
  rw [View.read_apply]
  show V c main_v14 _ = V c main_v14 _
  congr 1
  funext a
  apply Fin.ext
  match a with
  | ⟨0, _⟩ => show win1_2.index t 0 * 1 + 1 * 0 = 0; rw [e0]
  | ⟨1, _⟩ => show win1_2.index t 1 * 2056 + 1 * j.val = j.val; rw [e1]; omega

/-- Entry (r, j) of the second sample window's block at point t is entry (512 t + r, j) of its array. -/
theorem blk1_apply (c : Dev nD) (t : Fin cfg1.N) (r : Fin 512) (j : Fin 2056) (n : Fin 16384) (hn : n.val = t.val * 512 + r.val) :
    (iblk1 V c 1 t : Vec F S512x2056 .f32) (ix2 r j) = (V c main_v1 : S16384x2056.Idx → F .f32) (ix2 n j) := by
  obtain ⟨-, ⟨e0, e1⟩, -⟩ := idx_facts t
  unfold iblk1
  rw [View.read_apply]
  show V c main_v1 _ = V c main_v1 _
  congr 1
  funext a
  apply Fin.ext
  match a with
  | ⟨0, _⟩ => show win1_1.index t 0 * 512 + 1 * r.val = n.val; rw [e0, hn]; omega
  | ⟨1, _⟩ => show win1_1.index t 1 * 2056 + 1 * j.val = j.val; rw [e1]; omega

/-- Entry (0, j) of the second mean's window at any point is entry (0, j) of its array. -/
theorem blk3_apply (c : Dev nD) (t : Fin cfg1.N) (j : Fin 2056) :
    (iblk1 V c 3 t : Vec F S1x2056 .f32) (ix2 0 j) = (V c main_v16 : S1x2056.Idx → F .f32) (ix2 0 j) := by
  obtain ⟨-, -, -, ⟨e0, e1⟩, -⟩ := idx_facts t
  unfold iblk1
  rw [View.read_apply]
  show V c main_v16 _ = V c main_v16 _
  congr 1
  funext a
  apply Fin.ext
  match a with
  | ⟨0, _⟩ => show win1_3.index t 0 * 1 + 1 * 0 = 0; rw [e0]
  | ⟨1, _⟩ => show win1_3.index t 1 * 2056 + 1 * j.val = j.val; rw [e1]; omega

/-- Entry (0, j) of the first real mixing coefficient's window at any point is entry (0, j) of its array. -/
theorem blk4_apply (c : Dev nD) (t : Fin cfg1.N) (j : Fin 2056) :
    (iblk1 V c 4 t : Vec F S1x2056 .f32) (ix2 0 j) = (V c main_v55 : S1x2056.Idx → F .f32) (ix2 0 j) := by
  obtain ⟨-, -, -, -, ⟨e0, e1⟩, -⟩ := idx_facts t
  unfold iblk1
  rw [View.read_apply]
  show V c main_v55 _ = V c main_v55 _
  congr 1
  funext a
  apply Fin.ext
  match a with
  | ⟨0, _⟩ => show win1_4.index t 0 * 1 + 1 * 0 = 0; rw [e0]
  | ⟨1, _⟩ => show win1_4.index t 1 * 2056 + 1 * j.val = j.val; rw [e1]; omega

/-- Entry (0, j) of the second real mixing coefficient's window at any point is entry (0, j) of its array. -/
theorem blk5_apply (c : Dev nD) (t : Fin cfg1.N) (j : Fin 2056) :
    (iblk1 V c 5 t : Vec F S1x2056 .f32) (ix2 0 j) = (V c main_v58 : S1x2056.Idx → F .f32) (ix2 0 j) := by
  obtain ⟨-, -, -, -, -, ⟨e0, e1⟩, -⟩ := idx_facts t
  unfold iblk1
  rw [View.read_apply]
  show V c main_v58 _ = V c main_v58 _
  congr 1
  funext a
  apply Fin.ext
  match a with
  | ⟨0, _⟩ => show win1_5.index t 0 * 1 + 1 * 0 = 0; rw [e0]
  | ⟨1, _⟩ => show win1_5.index t 1 * 2056 + 1 * j.val = j.val; rw [e1]; omega

/-- Entry (0, j) of the first imaginary mixing coefficient's window at any point is entry (0, j) of its array. -/
theorem blk6_apply (c : Dev nD) (t : Fin cfg1.N) (j : Fin 2056) :
    (iblk1 V c 6 t : Vec F S1x2056 .f32) (ix2 0 j) = (V c main_v61 : S1x2056.Idx → F .f32) (ix2 0 j) := by
  obtain ⟨-, -, -, -, -, -, ⟨e0, e1⟩, -⟩ := idx_facts t
  unfold iblk1
  rw [View.read_apply]
  show V c main_v61 _ = V c main_v61 _
  congr 1
  funext a
  apply Fin.ext
  match a with
  | ⟨0, _⟩ => show win1_6.index t 0 * 1 + 1 * 0 = 0; rw [e0]
  | ⟨1, _⟩ => show win1_6.index t 1 * 2056 + 1 * j.val = j.val; rw [e1]; omega

/-- Entry (0, j) of the second imaginary mixing coefficient's window at any point is entry (0, j) of its array. -/
theorem blk7_apply (c : Dev nD) (t : Fin cfg1.N) (j : Fin 2056) :
    (iblk1 V c 7 t : Vec F S1x2056 .f32) (ix2 0 j) = (V c main_v64 : S1x2056.Idx → F .f32) (ix2 0 j) := by
  obtain ⟨-, -, -, -, -, -, -, ⟨e0, e1⟩, -⟩ := idx_facts t
  unfold iblk1
  rw [View.read_apply]
  show V c main_v64 _ = V c main_v64 _
  congr 1
  funext a
  apply Fin.ext
  match a with
  | ⟨0, _⟩ => show win1_7.index t 0 * 1 + 1 * 0 = 0; rw [e0]
  | ⟨1, _⟩ => show win1_7.index t 1 * 2056 + 1 * j.val = j.val; rw [e1]; omega

/-- Entry (0, j) of the real offset's window at any point is entry (0, j) of its array. -/
theorem blk8_apply (c : Dev nD) (t : Fin cfg1.N) (j : Fin 2056) :
    (iblk1 V c 8 t : Vec F S1x2056 .f32) (ix2 0 j) = (V c main_v51 : S1x2056.Idx → F .f32) (ix2 0 j) := by
  obtain ⟨-, -, -, -, -, -, -, -, ⟨e0, e1⟩, -⟩ := idx_facts t
  unfold iblk1
  rw [View.read_apply]
  show V c main_v51 _ = V c main_v51 _
  congr 1
  funext a
  apply Fin.ext
  match a with
  | ⟨0, _⟩ => show win1_8.index t 0 * 1 + 1 * 0 = 0; rw [e0]
  | ⟨1, _⟩ => show win1_8.index t 1 * 2056 + 1 * j.val = j.val; rw [e1]; omega

/-- Entry (0, j) of the imaginary offset's window at any point is entry (0, j) of its array. -/
theorem blk9_apply (c : Dev nD) (t : Fin cfg1.N) (j : Fin 2056) :
    (iblk1 V c 9 t : Vec F S1x2056 .f32) (ix2 0 j) = (V c main_v52 : S1x2056.Idx → F .f32) (ix2 0 j) := by
  obtain ⟨-, -, -, -, -, -, -, -, -, ⟨e0, e1⟩, -⟩ := idx_facts t
  unfold iblk1
  rw [View.read_apply]
  show V c main_v52 _ = V c main_v52 _
  congr 1
  funext a
  apply Fin.ext
  match a with
  | ⟨0, _⟩ => show win1_9.index t 0 * 1 + 1 * 0 = 0; rw [e0]
  | ⟨1, _⟩ => show win1_9.index t 1 * 2056 + 1 * j.val = j.val; rw [e1]; omega

/-- The column of an entry of a 16384 x 2056 array. -/
def col (i : S16384x2056.Idx) : Fin 2056 := ⟨(i 1).val, idx2_lt1 i⟩

/-! ## The first output -/

/-- The real part of the output, entry by entry, from the arrays the region finds. -/
def reArr (c : Dev nD) : S16384x2056.Idx → F .f32 := fun i =>
  affine ((V c main_v55 : S1x2056.Idx → F .f32) (ix2 0 (col i))) ((V c main_v58 : S1x2056.Idx → F .f32) (ix2 0 (col i)))
    ((V c main_v14 : S1x2056.Idx → F .f32) (ix2 0 (col i))) ((V c main_v16 : S1x2056.Idx → F .f32) (ix2 0 (col i)))
    ((V c main_v51 : S1x2056.Idx → F .f32) (ix2 0 (col i)))
    ((V c main_v0 : S16384x2056.Idx → F .f32) i) ((V c main_v1 : S16384x2056.Idx → F .f32) i)

/-- The real part at row n, column j. -/
theorem reArr_apply (c : Dev nD) (n : Fin 16384) (j : Fin 2056) : reArr V c (ix2 n j) =
    FloatOps.addf (FloatOps.addf
      (FloatOps.mulf (V c main_v55 (ix2 0 j)) (FloatOps.subf (V c main_v0 (ix2 n j)) (V c main_v14 (ix2 0 j))))
      (FloatOps.mulf (V c main_v58 (ix2 0 j)) (FloatOps.subf (V c main_v1 (ix2 n j)) (V c main_v16 (ix2 0 j)))))
      (V c main_v51 (ix2 0 j)) := rfl

/-- Entry (r, j) of the output's block at point t is entry (512 t + r, j) of the array. -/
theorem emb10 (t : Fin cfg1.N) (r : Fin 512) (j : Fin 2056) (n : Fin 16384) (hn : n.val = t.val * 512 + r.val) :
    ((cfg1.win 10).blk t).view.emb (ix2 r j) = (ix2 n j : S16384x2056.Idx) := by
  obtain ⟨-, -, -, -, -, -, -, -, -, -, ⟨e0, e1⟩, -⟩ := idx_facts t
  funext a
  apply Fin.ext
  match a with
  | ⟨0, _⟩ => show win1_10.index t 0 * 512 + 1 * r.val = n.val; rw [e0, hn]; omega
  | ⟨1, _⟩ => show win1_10.index t 1 * 2056 + 1 * j.val = j.val; rw [e1]; omega

/-- What point t writes back is block t of the whole-array function. -/
theorem flushed_re (c : Dev nD) (t : Fin cfg1.N) :
    (dat1 V c).flushed 10 t = ((cfg1.win 10).blk t).view.read (Elt F) (reArr V c) := by
  show (cfg1.win 10).cut (grid1.coords t) ((dat1 V c).after 10 t) = _
  rw [after1_10]
  unfold out1_10
  rw [View.canon_unit_zero hz]
  simp only [View.ld_unit_zero (S := S512x2056) hz, View.ld_unit_zero (S := S1x2056) hz]
  funext y
  obtain ⟨r, j, rfl⟩ : ∃ (r : Fin 512) (j : Fin 2056), y = ix2 r j := ⟨y 0, y 1, eq_ix2 y⟩
  have ht := lt_32 t
  have hn : (⟨t.val * 512 + r.val, by omega⟩ : Fin 16384).val = t.val * 512 + r.val := rfl
  refine (pay_re_apply _ _ _ _ _ _ _ r j).trans ?_
  show _ = reArr V c (((cfg1.win 10).blk t).view.emb (ix2 r j))
  rw [emb10 t r j _ hn]
  exact congr (congr (congr (congr (congr (congr (congrArg affine (blk4_apply V c t j)) (blk5_apply V c t j))
    (blk2_apply V c t j)) (blk3_apply V c t j)) (blk8_apply V c t j)) (blk0_apply V c t r j _ hn)) (blk1_apply V c t r j _ hn)

/-- An entry of the array is in point t's block iff each coordinate is in the block's range on its axis. -/
theorem mem_blk10 (t : Fin cfg1.N) (i : S16384x2056.Idx) :
    i ∈ ((cfg1.win 10).blk t).view.set ↔ ∀ a : Fin 2, win1_10.index t a * S512x2056.size a ≤ (i a).val ∧ (i a).val < win1_10.index t a * S512x2056.size a + S512x2056.size a := by
  show i ∈ ((View.whole main_v65_0).slice (win1_10.rect t)).set ↔ _
  rw [View.set_slice_whole, Rect.mem_set_unit]
  exact Iff.rfl

/-- Every entry of the array is in some point's block: row n is in the block of point n / 512. -/
theorem cover10 (i : S16384x2056.Idx) :
    ∃ t : Fin cfg1.N, (cfg1.win 10).flush t = true ∧ i ∈ ((cfg1.win 10).blk t).view.set := by
  have hi0 : (i 0).val < 16384 := idx2_lt0 i
  have hi1 : (i 1).val < 2056 := idx2_lt1 i
  have hN : cfg1.N = 32 := N_1
  have hq : (i 0).val / 512 < cfg1.N := by rw [hN]; omega
  refine ⟨⟨(i 0).val / 512, hq⟩, flush1_10 _, ?_⟩
  rw [mem_blk10]
  obtain ⟨-, -, -, -, -, -, -, -, -, -, ⟨e0, e1⟩, -⟩ := idx_facts ⟨(i 0).val / 512, hq⟩
  intro a
  match a with
  | ⟨0, _⟩ =>
    show win1_10.index ⟨(i 0).val / 512, hq⟩ (0 : Fin 2) * 512 ≤ (i 0).val ∧ (i 0).val < win1_10.index ⟨(i 0).val / 512, hq⟩ (0 : Fin 2) * 512 + 512
    rw [e0]
    show (i 0).val / 512 * 512 ≤ (i 0).val ∧ (i 0).val < (i 0).val / 512 * 512 + 512
    omega
  | ⟨1, _⟩ =>
    show win1_10.index ⟨(i 0).val / 512, hq⟩ (1 : Fin 2) * 2056 ≤ (i 1).val ∧ (i 1).val < win1_10.index ⟨(i 0).val / 512, hq⟩ (1 : Fin 2) * 2056 + 2056
    rw [e1]
    omega

/-- The array after the region: the whole-array function. -/
theorem final_re (c : Dev nD) : (dat1 V c).arrAt 10 cfg1.N = reArr V c :=
  (dat1 V c).arrAt_eq_of_cover 10 (reArr V c) (fun t _ => flushed_re V c t) cover10

/-! ## The second output -/

/-- The imaginary part of the output, entry by entry, from the arrays the region finds. -/
def imArr (c : Dev nD) : S16384x2056.Idx → F .f32 := fun i =>
  affine ((V c main_v61 : S1x2056.Idx → F .f32) (ix2 0 (col i))) ((V c main_v64 : S1x2056.Idx → F .f32) (ix2 0 (col i)))
    ((V c main_v14 : S1x2056.Idx → F .f32) (ix2 0 (col i))) ((V c main_v16 : S1x2056.Idx → F .f32) (ix2 0 (col i)))
    ((V c main_v52 : S1x2056.Idx → F .f32) (ix2 0 (col i)))
    ((V c main_v0 : S16384x2056.Idx → F .f32) i) ((V c main_v1 : S16384x2056.Idx → F .f32) i)

/-- The imaginary part at row n, column j. -/
theorem imArr_apply (c : Dev nD) (n : Fin 16384) (j : Fin 2056) : imArr V c (ix2 n j) =
    FloatOps.addf (FloatOps.addf
      (FloatOps.mulf (V c main_v61 (ix2 0 j)) (FloatOps.subf (V c main_v0 (ix2 n j)) (V c main_v14 (ix2 0 j))))
      (FloatOps.mulf (V c main_v64 (ix2 0 j)) (FloatOps.subf (V c main_v1 (ix2 n j)) (V c main_v16 (ix2 0 j)))))
      (V c main_v52 (ix2 0 j)) := rfl

/-- Entry (r, j) of the output's block at point t is entry (512 t + r, j) of the array. -/
theorem emb11 (t : Fin cfg1.N) (r : Fin 512) (j : Fin 2056) (n : Fin 16384) (hn : n.val = t.val * 512 + r.val) :
    ((cfg1.win 11).blk t).view.emb (ix2 r j) = (ix2 n j : S16384x2056.Idx) := by
  obtain ⟨-, -, -, -, -, -, -, -, -, -, -, ⟨e0, e1⟩⟩ := idx_facts t
  funext a
  apply Fin.ext
  match a with
  | ⟨0, _⟩ => show win1_11.index t 0 * 512 + 1 * r.val = n.val; rw [e0, hn]; omega
  | ⟨1, _⟩ => show win1_11.index t 1 * 2056 + 1 * j.val = j.val; rw [e1]; omega

/-- What point t writes back is block t of the whole-array function. -/
theorem flushed_im (c : Dev nD) (t : Fin cfg1.N) :
    (dat1 V c).flushed 11 t = ((cfg1.win 11).blk t).view.read (Elt F) (imArr V c) := by
  show (cfg1.win 11).cut (grid1.coords t) ((dat1 V c).after 11 t) = _
  rw [after1_11]
  unfold out1_11
  rw [View.canon_unit_zero hz]
  simp only [View.ld_unit_zero (S := S512x2056) hz, View.ld_unit_zero (S := S1x2056) hz]
  funext y
  obtain ⟨r, j, rfl⟩ : ∃ (r : Fin 512) (j : Fin 2056), y = ix2 r j := ⟨y 0, y 1, eq_ix2 y⟩
  have ht := lt_32 t
  have hn : (⟨t.val * 512 + r.val, by omega⟩ : Fin 16384).val = t.val * 512 + r.val := rfl
  refine (pay_im_apply _ _ _ _ _ _ _ r j).trans ?_
  show _ = imArr V c (((cfg1.win 11).blk t).view.emb (ix2 r j))
  rw [emb11 t r j _ hn]
  exact congr (congr (congr (congr (congr (congr (congrArg affine (blk6_apply V c t j)) (blk7_apply V c t j))
    (blk2_apply V c t j)) (blk3_apply V c t j)) (blk9_apply V c t j)) (blk0_apply V c t r j _ hn)) (blk1_apply V c t r j _ hn)

/-- An entry of the array is in point t's block iff each coordinate is in the block's range on its axis. -/
theorem mem_blk11 (t : Fin cfg1.N) (i : S16384x2056.Idx) :
    i ∈ ((cfg1.win 11).blk t).view.set ↔ ∀ a : Fin 2, win1_11.index t a * S512x2056.size a ≤ (i a).val ∧ (i a).val < win1_11.index t a * S512x2056.size a + S512x2056.size a := by
  show i ∈ ((View.whole main_v65_1).slice (win1_11.rect t)).set ↔ _
  rw [View.set_slice_whole, Rect.mem_set_unit]
  exact Iff.rfl

/-- Every entry of the array is in some point's block: row n is in the block of point n / 512. -/
theorem cover11 (i : S16384x2056.Idx) :
    ∃ t : Fin cfg1.N, (cfg1.win 11).flush t = true ∧ i ∈ ((cfg1.win 11).blk t).view.set := by
  have hi0 : (i 0).val < 16384 := idx2_lt0 i
  have hi1 : (i 1).val < 2056 := idx2_lt1 i
  have hN : cfg1.N = 32 := N_1
  have hq : (i 0).val / 512 < cfg1.N := by rw [hN]; omega
  refine ⟨⟨(i 0).val / 512, hq⟩, flush1_11 _, ?_⟩
  rw [mem_blk11]
  obtain ⟨-, -, -, -, -, -, -, -, -, -, -, ⟨e0, e1⟩⟩ := idx_facts ⟨(i 0).val / 512, hq⟩
  intro a
  match a with
  | ⟨0, _⟩ =>
    show win1_11.index ⟨(i 0).val / 512, hq⟩ (0 : Fin 2) * 512 ≤ (i 0).val ∧ (i 0).val < win1_11.index ⟨(i 0).val / 512, hq⟩ (0 : Fin 2) * 512 + 512
    rw [e0]
    show (i 0).val / 512 * 512 ≤ (i 0).val ∧ (i 0).val < (i 0).val / 512 * 512 + 512
    omega
  | ⟨1, _⟩ =>
    show win1_11.index ⟨(i 0).val / 512, hq⟩ (1 : Fin 2) * 2056 ≤ (i 1).val ∧ (i 1).val < win1_11.index ⟨(i 0).val / 512, hq⟩ (1 : Fin 2) * 2056 + 2056
    rw [e1]
    omega

/-- The array after the region: the whole-array function. -/
theorem final_im (c : Dev nD) : (dat1 V c).arrAt 11 cfg1.N = imArr V c :=
  (dat1 V c).arrAt_eq_of_cover 11 (imArr V c) (fun t _ => flushed_im V c t) cover11

end Cert.KernelIdeal.Affine

end
-- ==== Proof.KernelValue.lean ====
/-
  The idealized kernel's two results, entry by entry.

  Reading the fold of buffer contents backwards from a result entry (n, ch, f): the last reshape reads
  the affine region's output at row n, column j = 257 ch + f; that region's block is
  Z (x − mean) + B of the row vectors it is given; those row vectors are the host arithmetic applied to
  the statistics array; the two cores' slabs of that array add up to the sums over all 16384 rows of
  x, y, x², x·y, y² of column j; and column j of the reshaped sample arrays is the (ch, f) column of the
  arguments. So the means are plain sums divided by the batch size and the second moments are the
  moments about the origin minus the products of the means. For finite samples these are the centred
  moments, which is the form the reference computes.
-/
import proofs.«131606_j26182120636725_2_alg».proof.Proof.KernelRun
import proofs.«131606_j26182120636725_2_alg».proof.Proof.ColumnSums
import proofs.«131606_j26182120636725_2_alg».proof.Proof.HostGlue
import proofs.«131606_j26182120636725_2_alg».proof.Proof.AffineRegion

set_option maxRecDepth 16384

noncomputable section
open Idealize.ShloMosaic Idealize.ShloMosaic.TcCoe Idealize.SL.Sem Idealize.ShloMosaic.ValueIdx
namespace Cert.KernelIdeal.Value
open Cert.KernelIdeal Cert.KernelIdeal.Gen Cert.Whitening
open Cert.KernelIdeal.Glue (col)

variable (m : (ℓ : Loc nD τ sig) → Buf (Elt Ideal) ℓ) (ρ : Dev nD → PrngReg)

/-- The (ch, f) columns of the two sample arrays over the batch. -/
abbrev xcol (c : Dev nD) (ch : Fin 8) (f : Fin 257) : Fin 16384 → EReal :=
  fun k => m ((c.tc : Thread nD τ).loc main_arg0) (ix3 k ch f)
abbrev ycol (c : Dev nD) (ch : Fin 8) (f : Fin 257) : Fin 16384 → EReal :=
  fun k => m ((c.tc : Thread nD τ).loc main_arg1) (ix3 k ch f)

/-! ## What the statistics region is entered with and leaves -/

/-- No host operation before the first region writes an argument other than through the two reshapes. -/
theorem W1_keeps (c : Dev nD) (r : Ref sig .tc) (h0 : r ≠ main_v0) (h1 : r ≠ main_v1) :
    W1 m ρ c (Proc.devRef .tc r) = m ((c.tc : Thread nD τ).loc r) :=
  (StableHlo.after_of_forall_not_mem (b := Proc.devRef .tc r) _ _ (List.forall_iff_forall_mem.mp (by
    simp only [hostOps0, List.Forall, StableHlo.reshape_writes, Finset.mem_singleton]
    exact ⟨StableHlo.devRef_ne_of_ne h0, StableHlo.devRef_ne_of_ne h1⟩))).trans rfl

/-- The reshaped sample arrays at row n, column 257 ch + f, are the arguments at (n, ch, f). -/
theorem V1_x (c : Dev nD) (n : Fin 16384) (ch : Fin 8) (f : Fin 257) :
    V1 m ρ c main_v0 (ix2 n (col ch f)) = m ((c.tc : Thread nD τ).loc main_arg0) (ix3 n ch f) :=
  Glue.reshape_in0 (W0 m ρ c) n ch f
theorem V1_y (c : Dev nD) (n : Fin 16384) (ch : Fin 8) (f : Fin 257) :
    V1 m ρ c main_v1 (ix2 n (col ch f)) = m ((c.tc : Thread nD τ).loc main_arg1) (ix3 n ch f) :=
  Glue.reshape_in1 (W0 m ρ c) n ch f

/-- Region 0 leaves the statistics array in its output and its inputs as entered. -/
theorem W2_stats (c : Dev nD) : W2 m ρ c (Proc.devRef .tc main_v2) = Stats.statsArr (V1 m ρ) c :=
  (W2_arr m ρ c 2).trans (Stats.final_stats (V1 m ρ) c)
theorem W2_x (c : Dev nD) : W2 m ρ c (Proc.devRef .tc main_v0) = V1 m ρ c main_v0 :=
  (W2_arr m ρ c 0).trans ((dat0 (V1 m ρ) c).arrAt_in 0 rfl _)
theorem W2_y (c : Dev nD) : W2 m ρ c (Proc.devRef .tc main_v1) = V1 m ρ c main_v1 :=
  (W2_arr m ρ c 1).trans ((dat0 (V1 m ρ) c).arrAt_in 1 rfl _)
theorem W2_keeps (c : Dev nD) (r : Ref sig .tc) (hr : ∀ w, Pipeline.arrRef spec0 w ≠ r) (h0 : r ≠ main_v0) (h1 : r ≠ main_v1) :
    W2 m ρ c (Proc.devRef .tc r) = m ((c.tc : Thread nD τ).loc r) :=
  (W2_of_ne m ρ c r hr).trans (W1_keeps m ρ c r h0 h1)

/-- The two cores' column sums added are the sums over the whole batch of the column's summands. -/
theorem colSum_eq (c : Dev nD) (k : Fin 5) (ch : Fin 8) (f : Fin 257) :
    Glue.colSum (W2 m ρ c) k (col ch f) = ∑ n : Fin 16384, Stats.term k (xcol m c ch f n) (ycol m c ch f n) := by
  unfold Glue.colSum
  rw [W2_stats m ρ c]
  refine (Stats.colSum_rows (V1 m ρ) c k (col ch f)).trans ?_
  exact Finset.sum_congr rfl fun n _ => congrArg₂ (Stats.term k) (V1_x m ρ c n ch f) (V1_y m ρ c n ch f)

/-! ## The means and moments the host arithmetic forms -/

theorem mR_eq (c : Dev nD) (ch : Fin 8) (f : Fin 257) :
    Glue.mR (W2 m ρ c) (col ch f) = rawMean (xcol m c ch f) := by
  unfold Glue.mR rawMean
  rw [colSum_eq m ρ c 0 ch f]
  rfl

theorem mI_eq (c : Dev nD) (ch : Fin 8) (f : Fin 257) :
    Glue.mI (W2 m ρ c) (col ch f) = rawMean (ycol m c ch f) := by
  unfold Glue.mI rawMean
  rw [colSum_eq m ρ c 1 ch f]
  rfl

theorem vRR_eq (c : Dev nD) (ch : Fin 8) (f : Fin 257) :
    Glue.vRR (W2 m ρ c) (col ch f) = rawMoment (xcol m c ch f) (xcol m c ch f) := by
  unfold Glue.vRR rawMoment
  rw [colSum_eq m ρ c 2 ch f, mR_eq m ρ c ch f]
  rfl

theorem vRI_eq (c : Dev nD) (ch : Fin 8) (f : Fin 257) :
    Glue.vRI (W2 m ρ c) (col ch f) = rawMoment (xcol m c ch f) (ycol m c ch f) := by
  unfold Glue.vRI rawMoment
  rw [colSum_eq m ρ c 3 ch f, mR_eq m ρ c ch f, mI_eq m ρ c ch f]
  rfl

theorem vII_eq (c : Dev nD) (ch : Fin 8) (f : Fin 257) :
    Glue.vII (W2 m ρ c) (col ch f) = rawMoment (ycol m c ch f) (ycol m c ch f) := by
  unfold Glue.vII rawMoment
  rw [colSum_eq m ρ c 4 ch f, mI_eq m ρ c ch f]
  rfl

/-! ## The two results -/

/-- The real part of the result at (n, ch, f), for finite samples: Z (x − mean) + B with the reference's
    centred moments. -/
theorem result_re (c : Dev nD)
    (hx : ∀ i, ∃ r : ℝ, m ((c.tc : Thread nD τ).loc main_arg0) i = (r : EReal))
    (hy : ∀ i, ∃ r : ℝ, m ((c.tc : Thread nD τ).loc main_arg1) i = (r : EReal))
    (n : Fin 16384) (ch : Fin 8) (f : Fin 257) :
    W7 m ρ c (Proc.devRef .tc main_v66) (ix3 n ch f)
      = outRe (F := Ideal) (mean (xcol m c ch f)) (mean (ycol m c ch f))
          (centralMoment (xcol m c ch f) (xcol m c ch f)) (centralMoment (xcol m c ch f) (ycol m c ch f))
          (centralMoment (ycol m c ch f) (ycol m c ch f))
          (m ((c.tc : Thread nD τ).loc main_arg2) (ix2 ch f)) (m ((c.tc : Thread nD τ).loc main_arg3) (ix2 ch f))
          (m ((c.tc : Thread nD τ).loc main_arg5) (ix2 ch f))
          (m ((c.tc : Thread nD τ).loc main_arg0) (ix3 n ch f)) (m ((c.tc : Thread nD τ).loc main_arg1) (ix3 n ch f)) := by
  have hxc : ∀ k, ∃ r : ℝ, xcol m c ch f k = (r : EReal) := fun k => hx _
  have hyc : ∀ k, ∃ r : ℝ, ycol m c ch f k = (r : EReal) := fun k => hy _
  rw [mean_eq_rawMean, mean_eq_rawMean, centralMoment_eq_rawMoment _ _ hxc hxc, centralMoment_eq_rawMoment _ _ hxc hyc,
    centralMoment_eq_rawMoment _ _ hyc hyc,
    ← vRR_eq m ρ c ch f, ← vRI_eq m ρ c ch f, ← vII_eq m ρ c ch f, ← mR_eq m ρ c ch f, ← mI_eq m ρ c ch f]
  refine (Glue.reshape_out0 (W6 m ρ c) n ch f).trans ?_
  rw [show W6 m ρ c (Proc.devRef .tc main_v65_0) = Affine.reArr (V5 m ρ) c from
    (W6_arr m ρ c 10).trans (Affine.final_re (V5 m ρ) c), Affine.reArr_apply]
  have a2 := W2_keeps m ρ c main_arg2 (by decide) (by decide) (by decide)
  have a3 := W2_keeps m ρ c main_arg3 (by decide) (by decide) (by decide)
  have a5 := W2_keeps m ρ c main_arg5 (by decide) (by decide) (by decide)
  have e55 : V5 m ρ c main_v55 (ix2 (0 : Fin 1) (col ch f)) = _ := Glue.glue_zrr (W2 m ρ c) ch f
  have e58 : V5 m ρ c main_v58 (ix2 (0 : Fin 1) (col ch f)) = _ := Glue.glue_zri (W2 m ρ c) ch f
  have e14 : V5 m ρ c main_v14 (ix2 (0 : Fin 1) (col ch f)) = _ := Glue.glue_mr (W2 m ρ c) (col ch f)
  have e16 : V5 m ρ c main_v16 (ix2 (0 : Fin 1) (col ch f)) = _ := Glue.glue_mi (W2 m ρ c) (col ch f)
  have e51 : V5 m ρ c main_v51 (ix2 (0 : Fin 1) (col ch f)) = _ := Glue.glue_br (W2 m ρ c) ch f
  have e0 : V5 m ρ c main_v0 = W2 m ρ c (Proc.devRef .tc main_v0) := Glue.glue_x (W2 m ρ c)
  have e1 : V5 m ρ c main_v1 = W2 m ρ c (Proc.devRef .tc main_v1) := Glue.glue_y (W2 m ρ c)
  rw [e55, e58, e14, e16, e51, e0, e1, W2_x m ρ c, W2_y m ρ c, V1_x m ρ c n ch f, V1_y m ρ c n ch f, a2, a3, a5]
  rfl

/-- The imaginary part likewise. -/
theorem result_im (c : Dev nD)
    (hx : ∀ i, ∃ r : ℝ, m ((c.tc : Thread nD τ).loc main_arg0) i = (r : EReal))
    (hy : ∀ i, ∃ r : ℝ, m ((c.tc : Thread nD τ).loc main_arg1) i = (r : EReal))
    (n : Fin 16384) (ch : Fin 8) (f : Fin 257) :
    W7 m ρ c (Proc.devRef .tc main_v67) (ix3 n ch f)
      = outIm (F := Ideal) (mean (xcol m c ch f)) (mean (ycol m c ch f))
          (centralMoment (xcol m c ch f) (xcol m c ch f)) (centralMoment (xcol m c ch f) (ycol m c ch f))
          (centralMoment (ycol m c ch f) (ycol m c ch f))
          (m ((c.tc : Thread nD τ).loc main_arg3) (ix2 ch f)) (m ((c.tc : Thread nD τ).loc main_arg4) (ix2 ch f))
          (m ((c.tc : Thread nD τ).loc main_arg6) (ix2 ch f))
          (m ((c.tc : Thread nD τ).loc main_arg0) (ix3 n ch f)) (m ((c.tc : Thread nD τ).loc main_arg1) (ix3 n ch f)) := by
  have hxc : ∀ k, ∃ r : ℝ, xcol m c ch f k = (r : EReal) := fun k => hx _
  have hyc : ∀ k, ∃ r : ℝ, ycol m c ch f k = (r : EReal) := fun k => hy _
  rw [mean_eq_rawMean, mean_eq_rawMean, centralMoment_eq_rawMoment _ _ hxc hxc, centralMoment_eq_rawMoment _ _ hxc hyc,
    centralMoment_eq_rawMoment _ _ hyc hyc,
    ← vRR_eq m ρ c ch f, ← vRI_eq m ρ c ch f, ← vII_eq m ρ c ch f, ← mR_eq m ρ c ch f, ← mI_eq m ρ c ch f]
  refine (Glue.reshape_out1 (W6 m ρ c) n ch f).trans ?_
  rw [show W6 m ρ c (Proc.devRef .tc main_v65_1) = Affine.imArr (V5 m ρ) c from
    (W6_arr m ρ c 11).trans (Affine.final_im (V5 m ρ) c), Affine.imArr_apply]
  have a3 := W2_keeps m ρ c main_arg3 (by decide) (by decide) (by decide)
  have a4 := W2_keeps m ρ c main_arg4 (by decide) (by decide) (by decide)
  have a6 := W2_keeps m ρ c main_arg6 (by decide) (by decide) (by decide)
  have e61 : V5 m ρ c main_v61 (ix2 (0 : Fin 1) (col ch f)) = _ := Glue.glue_zir (W2 m ρ c) ch f
  have e64 : V5 m ρ c main_v64 (ix2 (0 : Fin 1) (col ch f)) = _ := Glue.glue_zii (W2 m ρ c) ch f
  have e14 : V5 m ρ c main_v14 (ix2 (0 : Fin 1) (col ch f)) = _ := Glue.glue_mr (W2 m ρ c) (col ch f)
  have e16 : V5 m ρ c main_v16 (ix2 (0 : Fin 1) (col ch f)) = _ := Glue.glue_mi (W2 m ρ c) (col ch f)
  have e52 : V5 m ρ c main_v52 (ix2 (0 : Fin 1) (col ch f)) = _ := Glue.glue_bi (W2 m ρ c) ch f
  have e0 : V5 m ρ c main_v0 = W2 m ρ c (Proc.devRef .tc main_v0) := Glue.glue_x (W2 m ρ c)
  have e1 : V5 m ρ c main_v1 = W2 m ρ c (Proc.devRef .tc main_v1) := Glue.glue_y (W2 m ρ c)
  rw [e61, e64, e14, e16, e52, e0, e1, W2_x m ρ c, W2_y m ρ c, V1_x m ρ c n ch f, V1_y m ρ c n ch f, a3, a4, a6]
  rfl

end Cert.KernelIdeal.Value
end
-- ==== Proof.RefColumns.lean ====
/-
  The reference program read column by column.

  The reference normalises each column (a fixed channel c and feature f) of the batch: it takes the two means over
  the 16384 rows, the three central second moments, the whitening matrix and the affine map. Read at the index
  (n, c, f), each of its two results is the scalar function of Whitening.lean (outRe / outIm) of the column's means
  and moments, the column's weights and bias, and the two entries at row n.
-/
import proofs.«131606_j26182120636725_2_alg».proof.Proof.Gen.ReferenceIdeal.Read
import proofs.«131606_j26182120636725_2_alg».proof.Proof.Whitening
import Idealize.ShloMosaic.Lib.ValueIdx

noncomputable section

open scoped BigOperators

namespace Cert.ReferenceIdeal.RefValue

open Cert.ReferenceIdeal Cert.ReferenceIdeal.Gen Cert.ReferenceIdeal.Read Cert.Whitening
open Idealize.ShloMosaic Idealize.ShloMosaic.TcCoe Idealize.SL.Sem Idealize.ShloMosaic.StableHlo Idealize.ShloMosaic.ValueIdx

/-! ## The indices the layout operations read at

A broadcast along the batch axis reads its operand at row 0 of the same column; a broadcast of a per-column array to
one row reads the column; a sum over the batch axis reads row k of the column. -/

theorem row_idx8 (n : Fin 16384) (c : Fin 8) (f : Fin 257) :
    idx_main_v8 (ix3 n c f) = ix3 (0 : Fin 1) c f := by
  funext a; match a with | ⟨0, _⟩ => rfl | ⟨1, _⟩ => rfl | ⟨2, _⟩ => rfl
theorem row_idx10 (n : Fin 16384) (c : Fin 8) (f : Fin 257) :
    idx_main_v10 (ix3 n c f) = ix3 (0 : Fin 1) c f := by
  funext a; match a with | ⟨0, _⟩ => rfl | ⟨1, _⟩ => rfl | ⟨2, _⟩ => rfl
theorem row_idx66 (n : Fin 16384) (c : Fin 8) (f : Fin 257) :
    idx_main_v66 (ix3 n c f) = ix3 (0 : Fin 1) c f := by
  funext a; match a with | ⟨0, _⟩ => rfl | ⟨1, _⟩ => rfl | ⟨2, _⟩ => rfl
theorem row_idx68 (n : Fin 16384) (c : Fin 8) (f : Fin 257) :
    idx_main_v68 (ix3 n c f) = ix3 (0 : Fin 1) c f := by
  funext a; match a with | ⟨0, _⟩ => rfl | ⟨1, _⟩ => rfl | ⟨2, _⟩ => rfl
theorem row_idx72 (n : Fin 16384) (c : Fin 8) (f : Fin 257) :
    idx_main_v72 (ix3 n c f) = ix3 (0 : Fin 1) c f := by
  funext a; match a with | ⟨0, _⟩ => rfl | ⟨1, _⟩ => rfl | ⟨2, _⟩ => rfl
theorem row_idx74 (n : Fin 16384) (c : Fin 8) (f : Fin 257) :
    idx_main_v74 (ix3 n c f) = ix3 (0 : Fin 1) c f := by
  funext a; match a with | ⟨0, _⟩ => rfl | ⟨1, _⟩ => rfl | ⟨2, _⟩ => rfl
theorem row_idx76 (n : Fin 16384) (c : Fin 8) (f : Fin 257) :
    idx_main_v76 (ix3 n c f) = ix3 (0 : Fin 1) c f := by
  funext a; match a with | ⟨0, _⟩ => rfl | ⟨1, _⟩ => rfl | ⟨2, _⟩ => rfl
theorem row_idx80 (n : Fin 16384) (c : Fin 8) (f : Fin 257) :
    idx_main_v80 (ix3 n c f) = ix3 (0 : Fin 1) c f := by
  funext a; match a with | ⟨0, _⟩ => rfl | ⟨1, _⟩ => rfl | ⟨2, _⟩ => rfl
theorem col_idx1 (z : Fin 1) (c : Fin 8) (f : Fin 257) :
    idx_main_v1 (ix3 z c f) = ix2 c f := by
  funext a; match a with | ⟨0, _⟩ => rfl | ⟨1, _⟩ => rfl
theorem col_idx5 (z : Fin 1) (c : Fin 8) (f : Fin 257) :
    idx_main_v5 (ix3 z c f) = ix2 c f := by
  funext a; match a with | ⟨0, _⟩ => rfl | ⟨1, _⟩ => rfl
theorem col_idx14 (z : Fin 1) (c : Fin 8) (f : Fin 257) :
    idx_main_v14 (ix3 z c f) = ix2 c f := by
  funext a; match a with | ⟨0, _⟩ => rfl | ⟨1, _⟩ => rfl
theorem col_idx19 (z : Fin 1) (c : Fin 8) (f : Fin 257) :
    idx_main_v19 (ix3 z c f) = ix2 c f := by
  funext a; match a with | ⟨0, _⟩ => rfl | ⟨1, _⟩ => rfl
theorem col_idx24 (z : Fin 1) (c : Fin 8) (f : Fin 257) :
    idx_main_v24 (ix3 z c f) = ix2 c f := by
  funext a; match a with | ⟨0, _⟩ => rfl | ⟨1, _⟩ => rfl
theorem col_idx46 (z : Fin 1) (c : Fin 8) (f : Fin 257) :
    idx_main_v46 (ix3 z c f) = ix2 c f := by
  funext a; match a with | ⟨0, _⟩ => rfl | ⟨1, _⟩ => rfl
theorem col_idx48 (z : Fin 1) (c : Fin 8) (f : Fin 257) :
    idx_main_v48 (ix3 z c f) = ix2 c f := by
  funext a; match a with | ⟨0, _⟩ => rfl | ⟨1, _⟩ => rfl
theorem col_idx51 (z : Fin 1) (c : Fin 8) (f : Fin 257) :
    idx_main_v51 (ix3 z c f) = ix2 c f := by
  funext a; match a with | ⟨0, _⟩ => rfl | ⟨1, _⟩ => rfl
theorem col_idx53 (z : Fin 1) (c : Fin 8) (f : Fin 257) :
    idx_main_v53 (ix3 z c f) = ix2 c f := by
  funext a; match a with | ⟨0, _⟩ => rfl | ⟨1, _⟩ => rfl
theorem col_idx56 (z : Fin 1) (c : Fin 8) (f : Fin 257) :
    idx_main_v56 (ix3 z c f) = ix2 c f := by
  funext a; match a with | ⟨0, _⟩ => rfl | ⟨1, _⟩ => rfl
theorem col_idx58 (z : Fin 1) (c : Fin 8) (f : Fin 257) :
    idx_main_v58 (ix3 z c f) = ix2 c f := by
  funext a; match a with | ⟨0, _⟩ => rfl | ⟨1, _⟩ => rfl
theorem col_idx61 (z : Fin 1) (c : Fin 8) (f : Fin 257) :
    idx_main_v61 (ix3 z c f) = ix2 c f := by
  funext a; match a with | ⟨0, _⟩ => rfl | ⟨1, _⟩ => rfl
theorem col_idx63 (z : Fin 1) (c : Fin 8) (f : Fin 257) :
    idx_main_v63 (ix3 z c f) = ix2 c f := by
  funext a; match a with | ⟨0, _⟩ => rfl | ⟨1, _⟩ => rfl
theorem col_idx71 (z : Fin 1) (c : Fin 8) (f : Fin 257) :
    idx_main_v71 (ix3 z c f) = ix2 c f := by
  funext a; match a with | ⟨0, _⟩ => rfl | ⟨1, _⟩ => rfl
theorem col_idx79 (z : Fin 1) (c : Fin 8) (f : Fin 257) :
    idx_main_v79 (ix3 z c f) = ix2 c f := by
  funext a; match a with | ⟨0, _⟩ => rfl | ⟨1, _⟩ => rfl
theorem sum_idx0 (c : Fin 8) (f : Fin 257) (k : Fin 16384) :
    idx_main_v0 (ix2 c f) k = ix3 k c f := by
  funext a; match a with | ⟨0, _⟩ => rfl | ⟨1, _⟩ => rfl | ⟨2, _⟩ => rfl
theorem sum_idx4 (c : Fin 8) (f : Fin 257) (k : Fin 16384) :
    idx_main_v4 (ix2 c f) k = ix3 k c f := by
  funext a; match a with | ⟨0, _⟩ => rfl | ⟨1, _⟩ => rfl | ⟨2, _⟩ => rfl
theorem sum_idx13 (c : Fin 8) (f : Fin 257) (k : Fin 16384) :
    idx_main_v13 (ix2 c f) k = ix3 k c f := by
  funext a; match a with | ⟨0, _⟩ => rfl | ⟨1, _⟩ => rfl | ⟨2, _⟩ => rfl
theorem sum_idx18 (c : Fin 8) (f : Fin 257) (k : Fin 16384) :
    idx_main_v18 (ix2 c f) k = ix3 k c f := by
  funext a; match a with | ⟨0, _⟩ => rfl | ⟨1, _⟩ => rfl | ⟨2, _⟩ => rfl
theorem sum_idx23 (c : Fin 8) (f : Fin 257) (k : Fin 16384) :
    idx_main_v23 (ix2 c f) k = ix3 k c f := by
  funext a; match a with | ⟨0, _⟩ => rfl | ⟨1, _⟩ => rfl | ⟨2, _⟩ => rfl

/-! ## The means of a column -/

variable (x0 x1 : (⟨S16384x8x257, .f32⟩ : BufTy).Contents (Elt Ideal)) (x2 x3 x4 x5 x6 : (⟨S8x257, .f32⟩ : BufTy).Contents (Elt Ideal))

/-- The mean of the real parts of a column. -/
theorem mean_re (c : Fin 8) (f : Fin 257) :
    val_main_v3 (F := Ideal) x0 (ix3 (0 : Fin 1) c f) = mean (fun k => x0 (ix3 k c f)) := by
  rw [val_main_v3_apply, val_main_v1_apply, col_idx1, val_main_v0_apply, val_main_cst_apply, val_main_v2_apply,
    val_main_cst_0_apply]
  unfold mean
  refine congrArg (fun s => FloatOps.hostDivf (F := Ideal) (φ := .f32) (Ideal.ofBits .f32 0x00000000#32 + s) batch)
    (Finset.sum_congr rfl fun k _ => ?_)
  rw [sum_idx0]

/-- The mean of the imaginary parts of a column. -/
theorem mean_im (c : Fin 8) (f : Fin 257) :
    val_main_v7 (F := Ideal) x1 (ix3 (0 : Fin 1) c f) = mean (fun k => x1 (ix3 k c f)) := by
  rw [val_main_v7_apply, val_main_v5_apply, col_idx5, val_main_v4_apply, val_main_cst_1_apply, val_main_v6_apply,
    val_main_cst_2_apply]
  unfold mean
  refine congrArg (fun s => FloatOps.hostDivf (F := Ideal) (φ := .f32) (Ideal.ofBits .f32 0x00000000#32 + s) batch)
    (Finset.sum_congr rfl fun k _ => ?_)
  rw [sum_idx4]

/-- A centred real part. -/
theorem centred_re (n : Fin 16384) (c : Fin 8) (f : Fin 257) :
    val_main_v9 (F := Ideal) x0 (ix3 n c f) = x0 (ix3 n c f) - mean (fun k => x0 (ix3 k c f)) := by
  rw [val_main_v9_apply, val_main_v8_apply, row_idx8, mean_re]
  rfl

/-- A centred imaginary part. -/
theorem centred_im (n : Fin 16384) (c : Fin 8) (f : Fin 257) :
    val_main_v11 (F := Ideal) x1 (ix3 n c f) = x1 (ix3 n c f) - mean (fun k => x1 (ix3 k c f)) := by
  rw [val_main_v11_apply, val_main_v10_apply, row_idx10, mean_im]
  rfl

/-! ## The three second central moments of a column -/

theorem moment_rr (c : Fin 8) (f : Fin 257) :
    val_main_v16 (F := Ideal) x0 (ix3 (0 : Fin 1) c f) = centralMoment (fun k => x0 (ix3 k c f)) (fun k => x0 (ix3 k c f)) := by
  rw [val_main_v16_apply, val_main_v14_apply, col_idx14, val_main_v13_apply, val_main_cst_3_apply, val_main_v15_apply,
    val_main_cst_4_apply]
  unfold centralMoment
  refine congrArg (fun s => FloatOps.hostDivf (F := Ideal) (φ := .f32) (Ideal.ofBits .f32 0x00000000#32 + s) batch)
    (Finset.sum_congr rfl fun k _ => ?_)
  rw [sum_idx13, val_main_v12_apply, centred_re]
  rfl

theorem moment_ri (c : Fin 8) (f : Fin 257) :
    val_main_v21 (F := Ideal) x0 x1 (ix3 (0 : Fin 1) c f) = centralMoment (fun k => x0 (ix3 k c f)) (fun k => x1 (ix3 k c f)) := by
  rw [val_main_v21_apply, val_main_v19_apply, col_idx19, val_main_v18_apply, val_main_cst_5_apply, val_main_v20_apply,
    val_main_cst_6_apply]
  unfold centralMoment
  refine congrArg (fun s => FloatOps.hostDivf (F := Ideal) (φ := .f32) (Ideal.ofBits .f32 0x00000000#32 + s) batch)
    (Finset.sum_congr rfl fun k _ => ?_)
  rw [sum_idx18, val_main_v17_apply, centred_re, centred_im]
  rfl

theorem moment_ii (c : Fin 8) (f : Fin 257) :
    val_main_v26 (F := Ideal) x1 (ix3 (0 : Fin 1) c f) = centralMoment (fun k => x1 (ix3 k c f)) (fun k => x1 (ix3 k c f)) := by
  rw [val_main_v26_apply, val_main_v24_apply, col_idx24, val_main_v23_apply, val_main_cst_7_apply, val_main_v25_apply,
    val_main_cst_8_apply]
  unfold centralMoment
  refine congrArg (fun s => FloatOps.hostDivf (F := Ideal) (φ := .f32) (Ideal.ofBits .f32 0x00000000#32 + s) batch)
    (Finset.sum_congr rfl fun k _ => ?_)
  rw [sum_idx23, val_main_v22_apply, centred_im]
  rfl

/-! ## The whitening matrix of a column -/

theorem clipped_det (c : Fin 8) (f : Fin 257) :
    val_main_v31 (F := Ideal) x0 x1 (ix3 (0 : Fin 1) c f) = clippedDet (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f))) := by
  rw [val_main_v31_apply, val_main_call0_v4_apply, val_main_call0_v3_apply, val_main_cst_10_apply,
    val_main_call0_v2_apply, val_main_call0_v1_apply, val_main_call0_v0_apply, val_main_cst_9_apply,
    val_main_v30_apply, val_main_v28_apply, val_main_v29_apply, moment_rr, moment_ri, moment_ii]
  rfl

theorem root_det (c : Fin 8) (f : Fin 257) :
    val_main_v32 (F := Ideal) x0 x1 (ix3 (0 : Fin 1) c f) = rootDet (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f))) := by
  rw [val_main_v32_apply, clipped_det]
  rfl

theorem root_trace (c : Fin 8) (f : Fin 257) :
    val_main_v36 (F := Ideal) x0 x1 (ix3 (0 : Fin 1) c f) = rootTrace (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f))) := by
  rw [val_main_v36_apply, val_main_v35_apply, val_main_v27_apply, val_main_v34_apply, val_main_v33_apply,
    val_main_cst_11_apply, root_det, moment_rr, moment_ii]
  rfl

theorem inv_norm (c : Fin 8) (f : Fin 257) :
    val_main_v39 (F := Ideal) x0 x1 (ix3 (0 : Fin 1) c f) = invNorm (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f))) := by
  rw [val_main_v39_apply, val_main_v38_apply, val_main_cst_12_apply, val_main_v37_apply, root_det, root_trace]
  rfl

theorem u_rr (c : Fin 8) (f : Fin 257) :
    val_main_v41 (F := Ideal) x0 x1 (ix3 (0 : Fin 1) c f) = uRR (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f))) := by
  rw [val_main_v41_apply, val_main_v40_apply, root_det, moment_ii, inv_norm]
  rfl

theorem u_ii (c : Fin 8) (f : Fin 257) :
    val_main_v43 (F := Ideal) x0 x1 (ix3 (0 : Fin 1) c f) = uII (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f))) := by
  rw [val_main_v43_apply, val_main_v42_apply, root_det, moment_rr, inv_norm]
  rfl

theorem u_ri (c : Fin 8) (f : Fin 257) :
    val_main_v45 (F := Ideal) x0 x1 (ix3 (0 : Fin 1) c f) = uRI (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f))) := by
  rw [val_main_v45_apply, val_main_v44_apply, moment_ri, inv_norm]
  rfl

/-! ## The affine mixing Z = W U of a column -/

theorem z_rr (c : Fin 8) (f : Fin 257) :
    val_main_v50 (F := Ideal) x0 x1 x2 x3 (ix3 (0 : Fin 1) c f) = zRR (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f)))
        (x2 (ix2 c f)) (x3 (ix2 c f)) := by
  rw [val_main_v50_apply, val_main_v47_apply, val_main_v46_apply, col_idx46, u_rr, val_main_v49_apply,
    val_main_v48_apply, col_idx48, u_ri]
  rfl

theorem z_ri (c : Fin 8) (f : Fin 257) :
    val_main_v55 (F := Ideal) x0 x1 x2 x3 (ix3 (0 : Fin 1) c f) = zRI (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f)))
        (x2 (ix2 c f)) (x3 (ix2 c f)) := by
  rw [val_main_v55_apply, val_main_v52_apply, val_main_v51_apply, col_idx51, u_ri, val_main_v54_apply,
    val_main_v53_apply, col_idx53, u_ii]
  rfl

theorem z_ir (c : Fin 8) (f : Fin 257) :
    val_main_v60 (F := Ideal) x0 x1 x3 x4 (ix3 (0 : Fin 1) c f) = zIR (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f)))
        (x3 (ix2 c f)) (x4 (ix2 c f)) := by
  rw [val_main_v60_apply, val_main_v57_apply, val_main_v56_apply, col_idx56, u_rr, val_main_v59_apply,
    val_main_v58_apply, col_idx58, u_ri]
  rfl

theorem z_ii (c : Fin 8) (f : Fin 257) :
    val_main_v65 (F := Ideal) x0 x1 x3 x4 (ix3 (0 : Fin 1) c f) = zII (F := Ideal)
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f)))
        (x3 (ix2 c f)) (x4 (ix2 c f)) := by
  rw [val_main_v65_apply, val_main_v62_apply, val_main_v61_apply, col_idx61, u_ri, val_main_v64_apply,
    val_main_v63_apply, col_idx63, u_ii]
  rfl

/-! ## The two results at an index -/

/-- The real part of the reference's result at (n, c, f). -/
theorem re_apply (x0 x1 : (⟨S16384x8x257, .f32⟩ : BufTy).Contents (Elt Ideal)) (x2 x3 x5 : (⟨S8x257, .f32⟩ : BufTy).Contents (Elt Ideal))
    (n : Fin 16384) (c : Fin 8) (f : Fin 257) :
    val_main_v73 (F := Ideal) x0 x1 x2 x3 x5 (ix3 n c f) =
      outRe (F := Ideal) (mean fun k => x0 (ix3 k c f)) (mean fun k => x1 (ix3 k c f))
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f)))
        (x2 (ix2 c f)) (x3 (ix2 c f)) (x5 (ix2 c f)) (x0 (ix3 n c f)) (x1 (ix3 n c f)) := by
  rw [val_main_v73_apply, val_main_v70_apply, val_main_v67_apply, val_main_v66_apply, row_idx66, z_rr, centred_re,
    val_main_v69_apply, val_main_v68_apply, row_idx68, z_ri, centred_im, val_main_v72_apply, row_idx72,
    val_main_v71_apply, col_idx71]
  rfl

/-- The imaginary part of the reference's result at (n, c, f). -/
theorem im_apply (x0 x1 : (⟨S16384x8x257, .f32⟩ : BufTy).Contents (Elt Ideal)) (x3 x4 x6 : (⟨S8x257, .f32⟩ : BufTy).Contents (Elt Ideal))
    (n : Fin 16384) (c : Fin 8) (f : Fin 257) :
    val_main_v81 (F := Ideal) x0 x1 x3 x4 x6 (ix3 n c f) =
      outIm (F := Ideal) (mean fun k => x0 (ix3 k c f)) (mean fun k => x1 (ix3 k c f))
        (centralMoment (fun k => x0 (ix3 k c f)) (fun k => x0 (ix3 k c f)))
        (centralMoment (fun k => x0 (ix3 k c f)) (fun k => x1 (ix3 k c f)))
        (centralMoment (fun k => x1 (ix3 k c f)) (fun k => x1 (ix3 k c f)))
        (x3 (ix2 c f)) (x4 (ix2 c f)) (x6 (ix2 c f)) (x0 (ix3 n c f)) (x1 (ix3 n c f)) := by
  rw [val_main_v81_apply, val_main_v78_apply, val_main_v75_apply, val_main_v74_apply, row_idx74, z_ir, centred_re,
    val_main_v77_apply, val_main_v76_apply, row_idx76, z_ii, centred_im, val_main_v80_apply, row_idx80,
    val_main_v79_apply, col_idx79]
  rfl

end Cert.ReferenceIdeal.RefValue

end
-- ==== Proof.FiniteSamples.lean ====
/-
  Finiteness of the samples.

  The precondition is the conjunction, over the seven float inputs, of "every entry x has |x| < +infinity". On the
  extended reals |x| = max x (-x), and max x (-x) < ⊤ excludes both x = ⊤ and x = ⊥: such an x is a real number.
  The conjunction is a chain of one-bit `and`s whose value is 1, so each conjunct is 1; each conjunct is a
  reduction by `and` over all axes of the array of comparisons, so each comparison is 1.
-/
import proofs.«131606_j26182120636725_2_alg».proof.Defs
import proofs.«131606_j26182120636725_2_alg».proof.Proof.Gen.Pre_finite_inputs
import Idealize.ShloMosaic.Lib.ReduceAll
import Idealize.ShloMosaic.Lib.ValueIdx

noncomputable section

namespace Cert.Whitening.Finite

open Idealize.ShloMosaic Idealize.SL.Sem
open Cert.Pre_finite_inputs

/-- The scalar shape has one index. -/
local instance : Subsingleton S_.Idx := ⟨fun a b => funext fun d => d.elim0⟩

/-- The printed bound is +infinity. -/
theorem inf_eq_top : Ideal.ofBits .f32 0x7F800000#32 = (⊤ : EReal) := by
  simp [Ideal.ofBits, Ideal.ieee]

/-- An extended real whose absolute value is below +infinity is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_eq_top] at h'
  unfold Ideal.cmp at h'
  induction x using EReal.rec with
  | bot => simp at h'
  | coe r => exact ⟨r, rfl⟩
  | top => simp at h'

/-- The precondition, for any seven arrays: every entry of the first two is a real number. -/
theorem entries_real [Cert.Pre_finite_inputs.Facts]
    (a0 a1 : FVec Ideal S16384x8x257 .f32) (a2 a3 a4 a5 a6 : FVec Ideal S8x257 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) := by
  have e := congrFun h ValueIdx.ix0
  dsimp only [Cert.Pre_finite_inputs.fn, Cert.Pre_finite_inputs.fn_part1] at e
  simp only [andi, IntOp.andi_eq_one] at e
  obtain ⟨⟨⟨⟨⟨⟨h0, h1⟩, -⟩, -⟩, -⟩, -⟩, -⟩ := e
  exact ⟨fun i => real_of_abs_lt (a0 i) (Host.reduce_andi_all _ _ _ _ _ h0 i),
    fun i => real_of_abs_lt (a1 i) (Host.reduce_andi_all _ _ _ _ _ h1 i)⟩

/-- Under the precondition every sample, real part and imaginary part, is a real number. -/
theorem samples_finite [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  entries_real _ _ _ _ _ _ _ (h c)

end Cert.Whitening.Finite

end
-- ==== Proof.Claims.lean ====
/-
  The five conjuncts of the claim.

  The three frames: the two kernels' are the generated frame certificates; the reference has no kernel,
  and its frame is its run with the results dropped. The idealization rewrote nothing, so there is
  nothing to preserve. The algebraic conjunct: the idealized kernel ends with its two results at
  Z (x − mean) + B computed from plain sums — means Σx/N and moments Σxy/N − mean·mean — and the reference
  at the same expression computed from centred sums Σ(x − mean)(y − mean)/N. Under the precondition every
  sample is a real number, the two forms of each moment are equal on the extended reals, and everything
  downstream of the moments is one function applied to equal arguments.
-/
import proofs.«131606_j26182120636725_2_alg».proof.Defs
import proofs.«131606_j26182120636725_2_alg».proof.Proof.Gen.Kernel
import proofs.«131606_j26182120636725_2_alg».proof.Proof.Gen.Kernel.Frame
import proofs.«131606_j26182120636725_2_alg».proof.Proof.Gen.KernelIdeal
import proofs.«131606_j26182120636725_2_alg».proof.Proof.Gen.ReferenceIdeal
import proofs.«131606_j26182120636725_2_alg».proof.Proof.Gen.Pre_finite_inputs
import proofs.«131606_j26182120636725_2_alg».proof.Proof.KernelValue
import proofs.«131606_j26182120636725_2_alg».proof.Proof.RefColumns
import proofs.«131606_j26182120636725_2_alg».proof.Proof.FiniteSamples

set_option maxRecDepth 16384

noncomputable section

namespace Cert.Proof.Claims

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W7 m ρ c (Proc.devRef .tc Cert.KernelIdeal.main_v66),
    fun c => Cert.KernelIdeal.Gen.W7 m ρ c (Proc.devRef .tc Cert.KernelIdeal.main_v67),
    Cert.KernelIdeal.Results.run m ρ, ?_⟩
  refine (θ_run Cert.ReferenceIdeal.defs _ _).mono (fun _ h c => ?_) (Cert.ReferenceIdeal.Value.run (F := Ideal) m' ρ')
  obtain ⟨h0, h1, h2, h3, h4, h5, h6⟩ := hagree c
  obtain ⟨fx, fy⟩ := Cert.Whitening.Finite.samples_finite m hpre c
  refine ⟨(h c).1.trans ?_, (h c).2.1.trans ?_, (h c).2.2⟩
  · rw [Cert.ReferenceIdeal.Read.val_main_v73_eq, h0, h1, h2, h3, h5]
    funext i
    rw [eq_ix3 i]
    exact (Cert.ReferenceIdeal.RefValue.re_apply _ _ _ _ _ (i 0) (i 1) (i 2)).trans
      (Cert.KernelIdeal.Value.result_re m ρ c fx fy (i 0) (i 1) (i 2)).symm
  · rw [Cert.ReferenceIdeal.Read.val_main_v81_eq, h0, h1, h3, h4, h6]
    funext i
    rw [eq_ix3 i]
    exact (Cert.ReferenceIdeal.RefValue.im_apply _ _ _ _ _ (i 0) (i 1) (i 2)).trans
      (Cert.KernelIdeal.Value.result_im m ρ c fx fy (i 0) (i 1) (i 2)).symm

end Cert.Proof.Claims

end
-- ==== Proof.lean ====
/-
  Training-mode complex batch normalisation: the kernel against its reference, on the extended reals.

  The kernel makes two passes over the 16384 × 8 × 257 samples. The first accumulates, per column, the
  sums of x, y, x², x·y and y² (split over two cores, eight tiles of 1024 rows each); the host turns them
  into the means, the second moments as E[xy] − E[x]E[y], the inverse square root of the 2×2 covariance
  and the mixing coefficients; the second pass applies Z (x − mean) + B. The reference computes the
  second moments from centred samples. The two agree whenever the samples are finite; the modules under
  Proof/ carry that out, and this file assembles the claim from their five conjuncts.
-/
import proofs.«131606_j26182120636725_2_alg».proof.Defs
import proofs.«131606_j26182120636725_2_alg».proof.Proof.Gen.Kernel
import proofs.«131606_j26182120636725_2_alg».proof.Proof.Gen.Kernel.Skeleton
import proofs.«131606_j26182120636725_2_alg».proof.Proof.Gen.Kernel.Launch
import proofs.«131606_j26182120636725_2_alg».proof.Proof.Gen.Kernel.Points
import proofs.«131606_j26182120636725_2_alg».proof.Proof.Gen.Kernel.Frame
import proofs.«131606_j26182120636725_2_alg».proof.Proof.Gen.KernelIdeal
import proofs.«131606_j26182120636725_2_alg».proof.Proof.Gen.KernelIdeal.Skeleton
import proofs.«131606_j26182120636725_2_alg».proof.Proof.Gen.KernelIdeal.Launch
import proofs.«131606_j26182120636725_2_alg».proof.Proof.Gen.KernelIdeal.Points
import proofs.«131606_j26182120636725_2_alg».proof.Proof.Gen.KernelIdeal.Frame
import proofs.«131606_j26182120636725_2_alg».proof.Proof.Gen.ReferenceIdeal
import proofs.«131606_j26182120636725_2_alg».proof.Proof.Gen.Pre_finite_inputs
import proofs.«131606_j26182120636725_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_referenceIdeal, Claims.preserves, Claims.algebraic⟩

end Cert.Proof

end
